-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .hbm, ⟨9, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x64, .f32⟩
  | .local _ .vmem, ⟨4, _⟩ => ⟨S400x10000, .f32⟩
  | .local _ .vmem, ⟨5, _⟩ => ⟨S400x10000, .f32⟩
  | .local _ .vmem, ⟨6, _⟩ => ⟨S400x64, .f32⟩
  | .local _ .vmem, ⟨7, _⟩ => ⟨S400x64, .f32⟩
  | .local _ .vmem, ⟨8, _⟩ => ⟨S10000x128, .f32⟩
  | .local _ .vmem, ⟨9, _⟩ => ⟨S10000x64, .f32⟩
  | .local _ .vmem, ⟨10, _⟩ => ⟨S1x64, .f32⟩
  | .local _ .vmem, ⟨11, _⟩ => ⟨S400x10000, .f32⟩
  | .local _ .vmem, ⟨12, _⟩ => ⟨S400x10000, .f32⟩
  | .local _ .vmem, ⟨13, _⟩ => ⟨S400x64, .f32⟩
  | .local _ .vmem, ⟨14, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .f32 = 32 ∨ (Rect.block (s := S10000x10000) S400x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v2) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .i1⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x1, .f32⟩
  | .hbm, ⟨36, _⟩ => ⟨S10000x64, .f32⟩
  | .hbm, ⟨37, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v15 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.PassOneRunsBits.lean ====
/-
  The first pass of the two-layer graph convolution, as a pipeline over 25 row blocks of 400 rows, and its two control
  cases. The body keeps a scratch array (10000×128) between row blocks: at the FIRST block it stores there the support
  `x · W1` of the whole feature matrix, at every block it reads the scratch back, and stores into the output block (400×64)
  `leaky(adj_block · scratch + b1) · W2`. Here: the branch condition in closed form over the 25 blocks, and the body's run in
  each of the two cases on any whole memrefs, the stored pieces found by the run itself. Any float instance.
-/
import proofs.«125529_g13657996001618_cont_week2b_1100_3_alg».proof.Proof.Gen.Kernel.Launch
import proofs.«125529_g13657996001618_cont_week2b_1100_3_alg».proof.Proof.Gen.Kernel.Skeleton
import proofs.«125529_g13657996001618_cont_week2b_1100_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassOne

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The body's branch condition from the grid coordinate: "this is row block 0". -/
abbrev isFirst (i : grid0.Coords) : Prop :=
  (Scalar.cmpi .ne (Scalar.extui (Scalar.cmpi .eq (BitVec.ofNat 32 (i 0).val) 0#32)) 0#32) = 1#1
/-- It holds at the first of the 25 row blocks and at no other: decided over the grid. -/
theorem isFirst_iff : ∀ t : Fin cfg0.N, isFirst (grid0.coords t) ↔ t.val = 0 :=
  (by decide +kernel : ∀ t : Fin grid0.N, isFirst (grid0.coords t) ↔ t.val = 0)

set_option maxHeartbeats 2000000 in
/-- The body at the FIRST row block, on whole memrefs: the five inputs at their contents, the output block and the scratch at
    anything. It runs to the continuation holding the inputs as they were, the output block with its pieces `L5` written
    and the scratch with its pieces `LS` written; both lists are what the run finds. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i)
    (x0 : Vec F S10000x128 .f32) (x1 : Vec F S128x128 .f32) (x2 : Vec F S1x128 .f32) (x3 : Vec F S128x64 .f32) (x4 : Vec F S400x10000 .f32) :
    Σ' (L5 : List (View.Piece (Elt F) S400x64 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gc1_body i arg1 harg1 arg2 harg2 arg3 harg3 arg4 harg4 arg5 harg5 arg6 harg6 arg7 harg7) K } := by
  refine ⟨?_, ?_, fun E K => ?run⟩
  case run =>
    simp only [cc0__gc1_body_eq_skeleton]; unfold cc0__gc1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

set_option maxHeartbeats 2000000 in
/-- The body at a LATER row block: the scratch is an input too, at the contents `xs` the first block left; it is read, not
    stored. The output block ends with its found pieces `L5` written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : ¬isFirst i)
    (x0 : Vec F S10000x128 .f32) (x1 : Vec F S128x128 .f32) (x2 : Vec F S1x128 .f32) (x3 : Vec F S128x64 .f32) (x4 : Vec F S400x10000 .f32) (xs : Vec F S10000x128 .f32) :
    { L5 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gc1_body i arg1 harg1 arg2 harg2 arg3 harg3 arg4 harg4 arg5 harg5 arg6 harg6 arg7 harg7) K } := by
  refine ⟨?_, fun E K => ?run⟩
  case run =>
    simp only [cc0__gc1_body_eq_skeleton]; unfold cc0__gc1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact HS

end Cert.Kernel.PassOne

end
-- ==== Proof.PassOneBits.lean ====
/-
  The first pass as a pipeline, given its two runs: what the output block and the scratch hold after each row block, the
  invariant that carries the scratch (before the first block the scratch is anything; afterwards it is what the first block
  stored, the support of the whole feature matrix, at every later block), the proof data and the body obligation at every
  block. At any float instance and any entry contents `V`.
-/
import proofs.«125529_g13657996001618_cont_week2b_1100_3_alg».proof.Proof.PassOneRunsBits

set_option maxRecDepth 16384

noncomputable section

namespace Cert.Kernel.PassOne

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the pass finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every row block (the four resident ones are fetched at
    the first block only, and their index never moves). -/
theorem before_feat_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_w1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_b1_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_w2_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_adj_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The memrefs the pipeline calls the body with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x64 .f32 := win0_5.stage (cfg0.slots t 5)
abbrev hs5 (t : Fin cfg0.N) : (ms5 t).IsWhole := hstage0_5 ((cfg0.slots t 5).cast nbuf0_5)
/-- The scratch: a whole scoped buffer of the kernel's own. -/
abbrev scM : Memref sig .tc .vmem S10000x128 .f32 := Memref.whole cc0_scratch0

/-- The first row block. -/
abbrev t₀ : Fin cfg0.N := ⟨0, by decide⟩

/-! ## What the stores leave -/

/-- The pieces the first block's run stores into the scratch tile it, -/
theorem support_cover (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i) (x0 : Vec F S10000x128 .f32) (x1 : Vec F S128x128 .f32) (x2 : Vec F S1x128 .f32) (x3 : Vec F S128x64 .f32) (x4 : Vec F S400x10000 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y
/-- and those it stores into the output block tile that; -/
theorem hidFirst_cover (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i) (x0 : Vec F S10000x128 .f32) (x1 : Vec F S128x128 .f32) (x2 : Vec F S1x128 .f32) (x3 : Vec F S128x64 .f32) (x4 : Vec F S400x10000 .f32) (y : S400x64.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S400x64.size (by sl_kernel_rfl) y
/-- so do a later block's. -/
theorem hidLater_cover (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : ¬isFirst i) (x0 : Vec F S10000x128 .f32) (x1 : Vec F S128x128 .f32) (x2 : Vec F S1x128 .f32) (x3 : Vec F S128x64 .f32) (x4 : Vec F S400x10000 .f32) (xs : Vec F S10000x128 .f32) (y : S400x64.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S400x64.size (by sl_kernel_rfl) y

/-- What the scratch holds from the first row block on: the pieces that block stored, read back. -/
def carried (c : Dev nD) : Vec F S10000x128 .f32 :=
  View.canon (runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((isFirst_iff t₀).mpr rfl)
    (blockAt V c 0 t₀) (blockAt V c 1 t₀) (blockAt V c 2 t₀) (blockAt V c 3 t₀) (blockAt V c 4 t₀)).2.1

/-- What the output block holds after the body at row block `t`. -/
def hidAt (c : Dev nD) (t : Fin cfg0.N) : Vec F S400x64 .f32 :=
  if h : t.val = 0 then
    View.canon (runFirst c (grid0.coords t) (ms0 t) (hs0 t) (ms1 t) (hs1 t) (ms2 t) (hs2 t) (ms3 t) (hs3 t) (ms4 t) (hs4 t) (ms5 t) (hs5 t) scM (Memref.isWhole_whole _) ((isFirst_iff t).mpr h) (blockAt V c 0 t) (blockAt V c 1 t) (blockAt V c 2 t) (blockAt V c 3 t) (blockAt V c 4 t)).1
  else
    View.canon (runLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (blockAt V c 0 t) (blockAt V c 1 t) (blockAt V c 2 t) (blockAt V c 3 t) (blockAt V c 4 t) (carried V c)).1

/-! ## The invariant that carries the scratch -/

/-- The core's scoped buffers other than the scratch (the other pass's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped buffers no window of this pass stages are the scratch and those. -/
theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ otherScoped c) := by
  rw [scopedRest0_eq]; rfl

/-- Before row block `n`: before the first, every scoped buffer at anything; afterwards the scratch at the carried support. -/
def PhiS (c : Dev nD) : (n : ℕ) → n ≤ cfg0.N → sProp 𝕄
  | 0, _ => Pipeline.ΦA spec0 c
  | _ + 1, _ => iprop((owns (c : Thread nD τ) scM fullShare (carried V c) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop((owns (c : Thread nD τ) scM fullShare (carried V c) ∗ otherScoped c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => hidAt V c t
  Φ t := PhiS V c t.val (Nat.le_of_lt_succ t.isLt)
  q _ := fullShare
  owed _ := 0

theorem dat_A (c : Dev nD) (w : Fin cfg0.W) : (dat V c).A w = V c (Pipeline.arrRef spec0 w) := by
  dsimp only [dat]
theorem Phi_castSucc (c : Dev nD) (t : Fin cfg0.N) : (dat V c).Φ t.castSucc = PhiS V c t.val (Nat.le_of_lt t.isLt) := by
  dsimp only [dat]; simp only [Fin.coe_castSucc]
theorem after_feat (c : Dev nD) (t : Fin cfg0.N) : (dat V c).after 0 t = blockAt V c 0 t := by dsimp only [dat]
theorem after_w1 (c : Dev nD) (t : Fin cfg0.N) : (dat V c).after 1 t = blockAt V c 1 t := by dsimp only [dat]
theorem after_b1 (c : Dev nD) (t : Fin cfg0.N) : (dat V c).after 2 t = blockAt V c 2 t := by dsimp only [dat]
theorem after_w2 (c : Dev nD) (t : Fin cfg0.N) : (dat V c).after 3 t = blockAt V c 3 t := by dsimp only [dat]
theorem after_adj (c : Dev nD) (t : Fin cfg0.N) : (dat V c).after 4 t = blockAt V c 4 t := by dsimp only [dat]
theorem after_hid (c : Dev nD) (t : Fin cfg0.N) : (dat V c).after 5 t = hidAt V c t := by dsimp only [dat]
theorem before_feat (c : Dev nD) (t : Fin cfg0.N) (d) : (dat V c).before 0 t d = blockAt V c 0 t :=
  before_feat_of V (dat V c) (dat_A V c 0) (after_feat V c) t d
theorem before_w1 (c : Dev nD) (t : Fin cfg0.N) (d) : (dat V c).before 1 t d = blockAt V c 1 t :=
  before_w1_of V (dat V c) (dat_A V c 1) (after_w1 V c) t d
theorem before_b1 (c : Dev nD) (t : Fin cfg0.N) (d) : (dat V c).before 2 t d = blockAt V c 2 t :=
  before_b1_of V (dat V c) (dat_A V c 2) (after_b1 V c) t d
theorem before_w2 (c : Dev nD) (t : Fin cfg0.N) (d) : (dat V c).before 3 t d = blockAt V c 3 t :=
  before_w2_of V (dat V c) (dat_A V c 3) (after_w2 V c) t d
theorem before_adj (c : Dev nD) (t : Fin cfg0.N) (d) : (dat V c).before 4 t d = blockAt V c 4 t :=
  before_adj_of V (dat V c) (dat_A V c 4) (after_adj V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 4000000 in
/-- At the first row block the invariant hands the body the scratch at anything and takes it back at the carried support; at a
    later block it hands it at the carried support and takes it back unchanged. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_feat, before_w1, before_b1, before_w2, before_adj]
  rw [show (dat V c).owesAt () t.succ = (dat V c).owesAt () t.castSucc from rfl,
    show (dat V c).Φ t.succ = PhiS V c (t.val + 1) t.isLt from rfl, PhiS_pos V c _ _ (Nat.succ_ne_zero _),
    after_feat, after_w1, after_b1, after_w2, after_adj, after_hid, Phi_castSucc V c t]
  by_cases h : t.val = 0
  · obtain rfl : t = t₀ := Fin.ext h
    rw [PhiS_zero V c _ _ rfl]; unfold Pipeline.ΦA; rw [scopedRest_split]
    rw [show hidAt V c t₀ = View.canon (runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((isFirst_iff t₀).mpr rfl) (blockAt V c 0 t₀) (blockAt V c 1 t₀) (blockAt V c 2 t₀) (blockAt V c 3 t₀) (blockAt V c 4 t₀)).1 from dif_pos rfl]
    iintro ⟨⟨⟨⟨%fs, HS⟩, Hoth⟩, Hg⟩, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((isFirst_iff t₀).mpr rfl) (blockAt V c 0 t₀) (blockAt V c 1 t₀) (blockAt V c 2 t₀) (blockAt V c 3 t₀) (blockAt V c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]
    · iexists fs; rw [owns_whole]; iexact HS
    iintro ⟨H0, H1, H2, H3, H4, ⟨%e5, H5⟩, ⟨%es, HS⟩⟩
    isplitl [HS Hoth Hg]
    · isplitl [HS Hoth]
      · isplitl [HS]
        · unfold owns carried; iexists _; isplitr
          swap; · iexact HS
          ipureintro; exact View.read_writes_eq_canon _ _ _ (support_cover c _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (hidFirst_cover c _ _ _ _ _ _ _ _ _ _ _ _ _ _ _ _ _ _ _ _ _)
  · rw [PhiS_pos V c _ _ h]
    rw [show hidAt V c t = View.canon (runLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (blockAt V c 0 t) (blockAt V c 1 t) (blockAt V c 2 t) (blockAt V c 3 t) (blockAt V c 4 t) (carried V c)).1 from dif_neg h]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (blockAt V c 0 t) (blockAt V c 1 t) (blockAt V c 2 t) (blockAt V c 3 t) (blockAt V c 4 t) (carried V c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (hidLater_cover c _ _ _ _ _ _ _ _ _ _ _ _ _ _ _ _ _ _ _ _ _ _)

theorem body_obligation (c : Dev nD) : BodyObligation (dat (F := F) V c) (defs₀ (F := F)) Variants.none () Set.univ := fun t => by
  rw [bigSep_W0, bigSep_W0]
  exact body_at V c t

/-- What the launch hands the pass is the invariant before the first row block, -/
theorem Phi_in (c : Dev nD) : Pipeline.ΦA spec0 c ⊢ (dat V c).Φ 0 := by
  rw [show (dat V c).Φ 0 = PhiS V c 0 (Nat.zero_le _) from rfl, PhiS_zero V c 0 _ rfl]

/-- and after the last the invariant gives it back, the scratch's contents forgotten. -/
theorem Phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 25 := N_0; omega)]
  unfold Pipeline.ΦA; rw [scopedRest_split]
  iintro ⟨⟨HS, Hoth⟩, Hg⟩
  isplitl [HS Hoth]
  · isplitl [HS]
    · iexists _; rw [← owns_whole]; iexact HS
    iexact Hoth
  iexact Hg

end Cert.Kernel.PassOne

end
-- ==== Proof.PassTwoBits.lean ====
/-
  The second pass of the two-layer graph convolution, as a pipeline over 25 row blocks of 400 rows: at block `t` the body
  holds the whole hidden array (10000×64, resident), the bias row (1×64, resident) and rows 400·t … 400·t+399 of the
  adjacency matrix (400×10000), and stores into the output block (400×64) the row-wise log-softmax of
  `adj_block · hidden + bias`. Nothing is carried from one block to the next: what the output's staging buffer holds after the
  body is one function of the three input blocks. Stated at any float instance and at any contents `V` of the core's
  buffers on entry.
-/
import proofs.«125529_g13657996001618_cont_week2b_1100_3_alg».proof.Proof.Gen.Kernel.Launch
import proofs.«125529_g13657996001618_cont_week2b_1100_3_alg».proof.Proof.Gen.Kernel.Skeleton
import proofs.«125529_g13657996001618_cont_week2b_1100_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassTwo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the pass finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every row block, fetched there or kept from the first. -/
theorem before_hidden_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_bias_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_adj_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer is read or written whole -/

abbrev rHid : Rect S10000x64 := Rect.unit (s := S10000x64) ![0, 0] S10000x64.size inb_S10000x64_S10000x64_0_0
abbrev rBias : Rect S1x64 := Rect.unit (s := S1x64) ![0, 0] S1x64.size inb_S1x64_S1x64_0_0
abbrev rAdj : Rect S400x10000 := Rect.unit (s := S400x10000) ![0, 0] S400x10000.size inb_S400x10000_S400x10000_0_0
abbrev rOut : Rect S400x64 := Rect.unit (s := S400x64) ![0, 0] S400x64.size inb_S400x64_S400x64_0_0

/-- What the body leaves in the output block: its one whole store of the row-wise log-softmax payload of the three loads. -/
def outBlock (hid : Vec F S10000x64 .f32) (bias : Vec F S1x64 .f32) (adj : Vec F S400x10000 .f32) : Vec F S400x64 .f32 :=
  View.canon [⟨rOut, k1_pay1 (View.ld adj rAdj) (View.ld hid rHid) (View.ld bias rBias)⟩]

/-- The one store covers the block. -/
theorem outBlock_cover (p0 : Vec F S400x64 .f32) (y : S400x64.Idx) :
    ∃ pc ∈ ([⟨rOut, p0⟩] : List (View.Piece (Elt F) S400x64 .f32)), y ∈ pc.1.set :=
  View.cover_of_tiled [⟨rOut, p0⟩] S400x64.size (by rfl) y

set_option maxHeartbeats 1000000 in
/-- The body on whole staging memrefs: the inputs are kept, the output block ends at `outBlock` of them. -/
theorem body_triple (c : Dev nD) (E : Set ℕ) (i : grid1.Coords) (arg1 : Memref sig .tc .vmem S10000x64 .f32) (harg1 : arg1.IsWhole) (arg2 : Memref sig .tc .vmem S1x64 .f32) (harg2 : arg2.IsWhole)
    (arg3 : Memref sig .tc .vmem S400x10000 .f32) (harg3 : arg3.IsWhole) (arg4 : Memref sig .tc .vmem S400x64 .f32) (harg4 : arg4.IsWhole)
    (x0 : Vec F S10000x64 .f32) (x1 : Vec F S1x64 .f32) (x2 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc1__gc2_body i arg1 harg1 arg2 harg2 arg3 harg3 arg4 harg4) K := by
  simp only [cc1__gc2_body_eq_skeleton]; unfold cc1__gc2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The proof data of the pass -/

/-- On core `c`: the arrays as the pass finds them; after the body at row block `t` each input's buffer still at its block and
    the output's at `outBlock` of the three; the invariant is the scoped rest and the generator register, untouched. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => outBlock (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]
theorem after_hidden (c : Dev nD) (t : Fin cfg1.N) : (dat V c).after 0 t = blockAt V c 0 t := by dsimp only [dat]
theorem after_bias (c : Dev nD) (t : Fin cfg1.N) : (dat V c).after 1 t = blockAt V c 1 t := by dsimp only [dat]
theorem after_adj (c : Dev nD) (t : Fin cfg1.N) : (dat V c).after 2 t = blockAt V c 2 t := by dsimp only [dat]
theorem after_out (c : Dev nD) (t : Fin cfg1.N) :
    (dat V c).after 3 t = outBlock (blockAt V c 0 t) (blockAt V c 1 t) (blockAt V c 2 t) := by dsimp only [dat]

theorem before_hidden (c : Dev nD) (t : Fin cfg1.N) (d) : (dat V c).before 0 t d = blockAt V c 0 t :=
  before_hidden_of V (dat V c) (dat_A V c 0) (after_hidden V c) t d
theorem before_bias (c : Dev nD) (t : Fin cfg1.N) (d) : (dat V c).before 1 t d = blockAt V c 1 t :=
  before_bias_of V (dat V c) (dat_A V c 1) (after_bias V c) t d
theorem before_adj (c : Dev nD) (t : Fin cfg1.N) (d) : (dat V c).before 2 t d = blockAt V c 2 t :=
  before_adj_of V (dat V c) (dat_A V c 2) (after_adj V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_hidden, before_bias, before_adj]
  rw [show (dat V c).Φ t.succ = (dat V c).Φ t.castSucc from rfl,
    show (dat V c).owesAt () t.succ = (dat V c).owesAt () t.castSucc from rfl,
    after_hidden, after_bias, after_adj, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact body_at V c t

end Cert.Kernel.PassTwo

end
-- ==== Proof.TwoPassesBits.lean ====
/-
  The whole program as three segments — the two host reshapes of the bias vectors, the first pass, the second pass — and
  its run: the contents of every unscoped buffer at each boundary (after the reshapes; after the first pass, whose output
  array holds what its 25 write-backs leave; after the second pass likewise), each pass as a segment entered from one
  boundary's contents and left at the next, and the run itself: every weakly fair execution terminates, and at the end
  every unscoped buffer holds the last boundary's contents. Both the frame claim (the arguments end as launched) and the
  result's value are read off this one run. Any float instance.
-/
import proofs.«125529_g13657996001618_cont_week2b_1100_3_alg».proof.Proof.PassOneBits
import proofs.«125529_g13657996001618_cont_week2b_1100_3_alg».proof.Proof.PassTwoBits

set_option maxRecDepth 16384

noncomputable section

namespace Cert.Kernel.TwoPasses

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- After the two reshapes (the first pass's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first pass: its arrays at what the pipeline leaves, every other buffer as entered. -/
def W2 (c : Dev nD) : Valuation τ sig (Elt F) :=
  Pipeline.withArrays spec0 c (W1 m c) fun w => (PassOne.dat (V1 m) c).arrAt w cfg0.N
theorem W2_arr (c : Dev nD) (w : Fin cfg0.W) :
    W2 m c (Proc.devRef .tc (Pipeline.arrRef spec0 w)) = (PassOne.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit_arrays1 (c : Dev nD) (w : Fin cfg0.W) : (PassOne.dat (V1 m) c).arrAt w cfg0.N = V2 m c (Pipeline.arrRef spec0 w) :=
  (W2_arr m c w).symm
theorem exit_rest1 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second pass, which is entered from there. -/
def W3 (c : Dev nD) : Valuation τ sig (Elt F) :=
  Pipeline.withArrays spec1 c (W2 m c) fun w => (PassTwo.dat (V2 m) c).arrAt w cfg1.N
theorem W3_arr (c : Dev nD) (w : Fin cfg1.W) :
    W3 m c (Proc.devRef .tc (Pipeline.arrRef spec1 w)) = (PassTwo.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit_arrays2 (c : Dev nD) (w : Fin cfg1.W) : (PassTwo.dat (V2 m) c).arrAt w cfg1.N = V3 m c (Pipeline.arrRef spec1 w) :=
  (W3_arr m c w).symm
theorem exit_rest2 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm p) c
  | ⟨0, _⟩ => fun c => PassOne.dat (V1 m) c
  | ⟨1, _⟩ => fun c => PassTwo.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Ride (c : Dev nD) : sProp 𝕄 := iprop((∃ r, prngReg c r) ∗ ∃ W, owes (c : Thread nD τ) (0 : CellTallies nD τ sig Unit) W)

theorem reshapes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W3 m c) ∗ ∃ r, prngReg c r)

/-- The reshapes as a segment. -/
abbrev reshapeSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp reshapes_fresh) op h) (W0 m) Ride

/-! ## The passes as segments -/

set_option backward.isDefEq.respectTransparency.types false in
/-- The first pass: entered from every unscoped buffer at `W1`, left at `W2`. The generator register goes into the pass's
    invariant and comes back; the scratch's carried contents are forgotten at the end. -/
def passOneSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (V1 m) c).loose
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (PassOne.dat (V1 m) c).Φ 0 from rfl]
    refine (?_ : _ ⊢ Pipeline.ΦA spec0 c).trans (PassOne.Phi_in (V1 m) c)
    unfold Pipeline.ΦA
    iintro ⟨Hp, -, Hr⟩
    isplitl [Hr]; · iexact Hr
    iexact Hp
  hout c := by
    rw [Pipeline.ownSems0_none, show (pdats m 0 c).Φ (Fin.last _) = (PassOne.dat (V1 m) c).Φ (Fin.last cfg0.N) from rfl]
    refine (PassOne.Phi_out (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from `W2`, left at `W3`; its invariant is the scoped rest and the generator register, untouched. -/
def passTwoSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (V2 m) c).loose
  hwaits := Pipeline.hwaits_of_owed_zero _ _ _ _ L lv 1 fun _ _ => rfl
  pre c := iprop(StableHlo.held (c : Thread nD τ) (Pipeline.ucRefs τ sig) (W2 m c) ∗ Ride c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit_arrays2 m c) (exit_rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (reshapeSeg m), .region (passOneSeg m), .region (passTwoSeg m) ]

theorem main_is_segs (c : Dev nD) : main (F := F) c = Pipeline.Seg.run (segs m) := (main_chain c).trans (by chain_rfl)

set_option backward.isDefEq.respectTransparency.types false in
/-- THE RUN. From any memory with zero counters every weakly fair execution of the program terminates, faulting nowhere, and
    in the final memory every unscoped buffer of every core holds the last boundary's contents `W3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.TwoPasses

end
-- ==== Proof.FramesBits.lean ====
/-
  The frame claim read off the run of the two passes: no host operation writes an argument array, each pass reads the ones it
  stages through input windows (an input window's array is never written back) and bypasses the others, so at the last boundary
  every argument's buffer still holds its launch contents. Also named here: what the result's buffer holds at the end, namely what
  the second pass's 25 write-backs leave in its output array. Any float instance.
-/
import proofs.«125529_g13657996001618_cont_week2b_1100_3_alg».proof.Proof.TwoPassesBits
import proofs.«125529_g13657996001618_cont_week2b_1100_3_alg».proof.Proof.Gen.Kernel.Regions

set_option maxRecDepth 16384

noncomputable section

namespace Cert.Kernel.TwoPasses

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

variable (m : (ℓ : Loc nD τ sig) → Buf (Elt F) ℓ)

theorem kept_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((PassOne.dat (V1 m) c).arrAt_in 0 rfl _).trans (PassOne.dat_A (V1 m) c 0))
    _ = m ((c : Thread nD τ).loc main_arg0) := Gen.V1_of m c main_arg0 (by decide)
theorem kept_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((PassTwo.dat (V2 m) c).arrAt_in 2 rfl _).trans (PassTwo.dat_A (V2 m) c 2))
    _ = W1 m c (Proc.devRef .tc main_arg1) := (W2_arr m c 4).trans (((PassOne.dat (V1 m) c).arrAt_in 4 rfl _).trans (PassOne.dat_A (V1 m) c 4))
    _ = m ((c : Thread nD τ).loc main_arg1) := Gen.V1_of m c main_arg1 (by decide)
theorem kept_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((PassOne.dat (V1 m) c).arrAt_in 1 rfl _).trans (PassOne.dat_A (V1 m) c 1))
    _ = m ((c : Thread nD τ).loc main_arg2) := Gen.V1_of m c main_arg2 (by decide)
theorem kept_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem kept_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 3).trans (((PassOne.dat (V1 m) c).arrAt_in 3 rfl _).trans (PassOne.dat_A (V1 m) c 3))
    _ = m ((c : Thread nD τ).loc main_arg4) := Gen.V1_of m c main_arg4 (by decide)
theorem kept_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)

/-- THE FRAME: every weakly fair execution terminates, nothing faulting, and the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c)⟩) (run_all m ρ)

/-- The result's buffer at the last boundary: the second pass's output array after its write-backs. -/
theorem result_buffer (c : Dev nD) : W3 m c (Proc.devRef .tc main_v0) = (PassTwo.dat (V2 m) c).arrAt 3 cfg1.N := W3_arr m c 3

/-- The second pass finds the hidden array where the first pass's write-backs left it, -/
theorem hidden_buffer (c : Dev nD) : V2 m c main_call0_v2 = (PassOne.dat (V1 m) c).arrAt 5 cfg0.N := W2_arr m c 5
/-- the adjacency matrix as launched, -/
theorem adj_at_pass_two (c : Dev nD) : V2 m c main_arg1 = m ((c : Thread nD τ).loc main_arg1) :=
  ((W2_arr m c 4).trans (((PassOne.dat (V1 m) c).arrAt_in 4 rfl _).trans (PassOne.dat_A (V1 m) c 4))).trans (Gen.V1_of m c main_arg1 (by decide))
/-- and the second bias row where the reshape put it. -/
theorem bias2_at_pass_two (c : Dev nD) : V2 m c main_call0_v1 = V1 m c main_call0_v1 := W2_of_ne m c main_call0_v1 (by decide)
/-- The first pass finds the arguments it stages as launched. -/
theorem feat_at_pass_one (c : Dev nD) : V1 m c main_arg0 = m ((c : Thread nD τ).loc main_arg0) := Gen.V1_of m c main_arg0 (by decide)
theorem adj_at_pass_one (c : Dev nD) : V1 m c main_arg1 = m ((c : Thread nD τ).loc main_arg1) := Gen.V1_of m c main_arg1 (by decide)
theorem w1_at_pass_one (c : Dev nD) : V1 m c main_arg2 = m ((c : Thread nD τ).loc main_arg2) := Gen.V1_of m c main_arg2 (by decide)
theorem w2_at_pass_one (c : Dev nD) : V1 m c main_arg4 = m ((c : Thread nD τ).loc main_arg4) := Gen.V1_of m c main_arg4 (by decide)

end Cert.Kernel.TwoPasses

end
-- ==== Proof.PassOneRunsIdeal.lean ====
/-
  The first pass of the two-layer graph convolution, as a pipeline over 25 row blocks of 400 rows, and its two control
  cases. The body keeps a scratch array (10000×128) between row blocks: at the FIRST block it stores there the support
  `x · W1` of the whole feature matrix, at every block it reads the scratch back, and stores into the output block (400×64)
  `leaky(adj_block · scratch + b1) · W2`. Here: the branch condition in closed form over the 25 blocks, and the body's run in
  each of the two cases on any whole memrefs, the stored pieces found by the run itself. Any float instance.
-/
import proofs.«125529_g13657996001618_cont_week2b_1100_3_alg».proof.Proof.Gen.KernelIdeal.Launch
import proofs.«125529_g13657996001618_cont_week2b_1100_3_alg».proof.Proof.Gen.KernelIdeal.Skeleton
import proofs.«125529_g13657996001618_cont_week2b_1100_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassOne

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The body's branch condition from the grid coordinate: "this is row block 0". -/
abbrev isFirst (i : grid0.Coords) : Prop :=
  (Scalar.cmpi .ne (Scalar.extui (Scalar.cmpi .eq (BitVec.ofNat 32 (i 0).val) 0#32)) 0#32) = 1#1
/-- It holds at the first of the 25 row blocks and at no other: decided over the grid. -/
theorem isFirst_iff : ∀ t : Fin cfg0.N, isFirst (grid0.coords t) ↔ t.val = 0 :=
  (by decide +kernel : ∀ t : Fin grid0.N, isFirst (grid0.coords t) ↔ t.val = 0)

set_option maxHeartbeats 2000000 in
/-- The body at the FIRST row block, on whole memrefs: the five inputs at their contents, the output block and the scratch at
    anything. It runs to the continuation holding the inputs as they were, the output block with its pieces `L5` written
    and the scratch with its pieces `LS` written; both lists are what the run finds. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i)
    (x0 : Vec F S10000x128 .f32) (x1 : Vec F S128x128 .f32) (x2 : Vec F S1x128 .f32) (x3 : Vec F S128x64 .f32) (x4 : Vec F S400x10000 .f32) :
    Σ' (L5 : List (View.Piece (Elt F) S400x64 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gc1_body i arg1 harg1 arg2 harg2 arg3 harg3 arg4 harg4 arg5 harg5 arg6 harg6 arg7 harg7) K } := by
  refine ⟨?_, ?_, fun E K => ?run⟩
  case run =>
    simp only [cc0__gc1_body_eq_skeleton]; unfold cc0__gc1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

set_option maxHeartbeats 2000000 in
/-- The body at a LATER row block: the scratch is an input too, at the contents `xs` the first block left; it is read, not
    stored. The output block ends with its found pieces `L5` written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : ¬isFirst i)
    (x0 : Vec F S10000x128 .f32) (x1 : Vec F S128x128 .f32) (x2 : Vec F S1x128 .f32) (x3 : Vec F S128x64 .f32) (x4 : Vec F S400x10000 .f32) (xs : Vec F S10000x128 .f32) :
    { L5 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gc1_body i arg1 harg1 arg2 harg2 arg3 harg3 arg4 harg4 arg5 harg5 arg6 harg6 arg7 harg7) K } := by
  refine ⟨?_, fun E K => ?run⟩
  case run =>
    simp only [cc0__gc1_body_eq_skeleton]; unfold cc0__gc1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact HS

end Cert.KernelIdeal.PassOne

end
-- ==== Proof.PassOneIdeal.lean ====
/-
  The first pass as a pipeline, given its two runs: what the output block and the scratch hold after each row block, the
  invariant that carries the scratch (before the first block the scratch is anything; afterwards it is what the first block
  stored, the support of the whole feature matrix, at every later block), the proof data and the body obligation at every
  block. At any float instance and any entry contents `V`.
-/
import proofs.«125529_g13657996001618_cont_week2b_1100_3_alg».proof.Proof.PassOneRunsIdeal

set_option maxRecDepth 16384

noncomputable section

namespace Cert.KernelIdeal.PassOne

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the pass finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every row block (the four resident ones are fetched at
    the first block only, and their index never moves). -/
theorem before_feat_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_w1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_b1_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_w2_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_adj_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The memrefs the pipeline calls the body with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x64 .f32 := win0_5.stage (cfg0.slots t 5)
abbrev hs5 (t : Fin cfg0.N) : (ms5 t).IsWhole := hstage0_5 ((cfg0.slots t 5).cast nbuf0_5)
/-- The scratch: a whole scoped buffer of the kernel's own. -/
abbrev scM : Memref sig .tc .vmem S10000x128 .f32 := Memref.whole cc0_scratch0

/-- The first row block. -/
abbrev t₀ : Fin cfg0.N := ⟨0, by decide⟩

/-! ## What the stores leave -/

/-- The pieces the first block's run stores into the scratch tile it, -/
theorem support_cover (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i) (x0 : Vec F S10000x128 .f32) (x1 : Vec F S128x128 .f32) (x2 : Vec F S1x128 .f32) (x3 : Vec F S128x64 .f32) (x4 : Vec F S400x10000 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y
/-- and those it stores into the output block tile that; -/
theorem hidFirst_cover (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i) (x0 : Vec F S10000x128 .f32) (x1 : Vec F S128x128 .f32) (x2 : Vec F S1x128 .f32) (x3 : Vec F S128x64 .f32) (x4 : Vec F S400x10000 .f32) (y : S400x64.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S400x64.size (by sl_kernel_rfl) y
/-- so do a later block's. -/
theorem hidLater_cover (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : ¬isFirst i) (x0 : Vec F S10000x128 .f32) (x1 : Vec F S128x128 .f32) (x2 : Vec F S1x128 .f32) (x3 : Vec F S128x64 .f32) (x4 : Vec F S400x10000 .f32) (xs : Vec F S10000x128 .f32) (y : S400x64.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S400x64.size (by sl_kernel_rfl) y

/-- What the scratch holds from the first row block on: the pieces that block stored, read back. -/
def carried (c : Dev nD) : Vec F S10000x128 .f32 :=
  View.canon (runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((isFirst_iff t₀).mpr rfl)
    (blockAt V c 0 t₀) (blockAt V c 1 t₀) (blockAt V c 2 t₀) (blockAt V c 3 t₀) (blockAt V c 4 t₀)).2.1

/-- What the output block holds after the body at row block `t`. -/
def hidAt (c : Dev nD) (t : Fin cfg0.N) : Vec F S400x64 .f32 :=
  if h : t.val = 0 then
    View.canon (runFirst c (grid0.coords t) (ms0 t) (hs0 t) (ms1 t) (hs1 t) (ms2 t) (hs2 t) (ms3 t) (hs3 t) (ms4 t) (hs4 t) (ms5 t) (hs5 t) scM (Memref.isWhole_whole _) ((isFirst_iff t).mpr h) (blockAt V c 0 t) (blockAt V c 1 t) (blockAt V c 2 t) (blockAt V c 3 t) (blockAt V c 4 t)).1
  else
    View.canon (runLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (blockAt V c 0 t) (blockAt V c 1 t) (blockAt V c 2 t) (blockAt V c 3 t) (blockAt V c 4 t) (carried V c)).1

/-! ## The invariant that carries the scratch -/

/-- The core's scoped buffers other than the scratch (the other pass's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped buffers no window of this pass stages are the scratch and those. -/
theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ otherScoped c) := by
  rw [scopedRest0_eq]; rfl

/-- Before row block `n`: before the first, every scoped buffer at anything; afterwards the scratch at the carried support. -/
def PhiS (c : Dev nD) : (n : ℕ) → n ≤ cfg0.N → sProp 𝕄
  | 0, _ => Pipeline.ΦA spec0 c
  | _ + 1, _ => iprop((owns (c : Thread nD τ) scM fullShare (carried V c) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop((owns (c : Thread nD τ) scM fullShare (carried V c) ∗ otherScoped c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => hidAt V c t
  Φ t := PhiS V c t.val (Nat.le_of_lt_succ t.isLt)
  q _ := fullShare
  owed _ := 0

theorem dat_A (c : Dev nD) (w : Fin cfg0.W) : (dat V c).A w = V c (Pipeline.arrRef spec0 w) := by
  dsimp only [dat]
theorem Phi_castSucc (c : Dev nD) (t : Fin cfg0.N) : (dat V c).Φ t.castSucc = PhiS V c t.val (Nat.le_of_lt t.isLt) := by
  dsimp only [dat]; simp only [Fin.coe_castSucc]
theorem after_feat (c : Dev nD) (t : Fin cfg0.N) : (dat V c).after 0 t = blockAt V c 0 t := by dsimp only [dat]
theorem after_w1 (c : Dev nD) (t : Fin cfg0.N) : (dat V c).after 1 t = blockAt V c 1 t := by dsimp only [dat]
theorem after_b1 (c : Dev nD) (t : Fin cfg0.N) : (dat V c).after 2 t = blockAt V c 2 t := by dsimp only [dat]
theorem after_w2 (c : Dev nD) (t : Fin cfg0.N) : (dat V c).after 3 t = blockAt V c 3 t := by dsimp only [dat]
theorem after_adj (c : Dev nD) (t : Fin cfg0.N) : (dat V c).after 4 t = blockAt V c 4 t := by dsimp only [dat]
theorem after_hid (c : Dev nD) (t : Fin cfg0.N) : (dat V c).after 5 t = hidAt V c t := by dsimp only [dat]
theorem before_feat (c : Dev nD) (t : Fin cfg0.N) (d) : (dat V c).before 0 t d = blockAt V c 0 t :=
  before_feat_of V (dat V c) (dat_A V c 0) (after_feat V c) t d
theorem before_w1 (c : Dev nD) (t : Fin cfg0.N) (d) : (dat V c).before 1 t d = blockAt V c 1 t :=
  before_w1_of V (dat V c) (dat_A V c 1) (after_w1 V c) t d
theorem before_b1 (c : Dev nD) (t : Fin cfg0.N) (d) : (dat V c).before 2 t d = blockAt V c 2 t :=
  before_b1_of V (dat V c) (dat_A V c 2) (after_b1 V c) t d
theorem before_w2 (c : Dev nD) (t : Fin cfg0.N) (d) : (dat V c).before 3 t d = blockAt V c 3 t :=
  before_w2_of V (dat V c) (dat_A V c 3) (after_w2 V c) t d
theorem before_adj (c : Dev nD) (t : Fin cfg0.N) (d) : (dat V c).before 4 t d = blockAt V c 4 t :=
  before_adj_of V (dat V c) (dat_A V c 4) (after_adj V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 4000000 in
/-- At the first row block the invariant hands the body the scratch at anything and takes it back at the carried support; at a
    later block it hands it at the carried support and takes it back unchanged. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_feat, before_w1, before_b1, before_w2, before_adj]
  rw [show (dat V c).owesAt () t.succ = (dat V c).owesAt () t.castSucc from rfl,
    show (dat V c).Φ t.succ = PhiS V c (t.val + 1) t.isLt from rfl, PhiS_pos V c _ _ (Nat.succ_ne_zero _),
    after_feat, after_w1, after_b1, after_w2, after_adj, after_hid, Phi_castSucc V c t]
  by_cases h : t.val = 0
  · obtain rfl : t = t₀ := Fin.ext h
    rw [PhiS_zero V c _ _ rfl]; unfold Pipeline.ΦA; rw [scopedRest_split]
    rw [show hidAt V c t₀ = View.canon (runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((isFirst_iff t₀).mpr rfl) (blockAt V c 0 t₀) (blockAt V c 1 t₀) (blockAt V c 2 t₀) (blockAt V c 3 t₀) (blockAt V c 4 t₀)).1 from dif_pos rfl]
    iintro ⟨⟨⟨⟨%fs, HS⟩, Hoth⟩, Hg⟩, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((isFirst_iff t₀).mpr rfl) (blockAt V c 0 t₀) (blockAt V c 1 t₀) (blockAt V c 2 t₀) (blockAt V c 3 t₀) (blockAt V c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]
    · iexists fs; rw [owns_whole]; iexact HS
    iintro ⟨H0, H1, H2, H3, H4, ⟨%e5, H5⟩, ⟨%es, HS⟩⟩
    isplitl [HS Hoth Hg]
    · isplitl [HS Hoth]
      · isplitl [HS]
        · unfold owns carried; iexists _; isplitr
          swap; · iexact HS
          ipureintro; exact View.read_writes_eq_canon _ _ _ (support_cover c _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (hidFirst_cover c _ _ _ _ _ _ _ _ _ _ _ _ _ _ _ _ _ _ _ _ _)
  · rw [PhiS_pos V c _ _ h]
    rw [show hidAt V c t = View.canon (runLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (blockAt V c 0 t) (blockAt V c 1 t) (blockAt V c 2 t) (blockAt V c 3 t) (blockAt V c 4 t) (carried V c)).1 from dif_neg h]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (blockAt V c 0 t) (blockAt V c 1 t) (blockAt V c 2 t) (blockAt V c 3 t) (blockAt V c 4 t) (carried V c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (hidLater_cover c _ _ _ _ _ _ _ _ _ _ _ _ _ _ _ _ _ _ _ _ _ _)

theorem body_obligation (c : Dev nD) : BodyObligation (dat (F := F) V c) (defs₀ (F := F)) Variants.none () Set.univ := fun t => by
  rw [bigSep_W0, bigSep_W0]
  exact body_at V c t

/-- What the launch hands the pass is the invariant before the first row block, -/
theorem Phi_in (c : Dev nD) : Pipeline.ΦA spec0 c ⊢ (dat V c).Φ 0 := by
  rw [show (dat V c).Φ 0 = PhiS V c 0 (Nat.zero_le _) from rfl, PhiS_zero V c 0 _ rfl]

/-- and after the last the invariant gives it back, the scratch's contents forgotten. -/
theorem Phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 25 := N_0; omega)]
  unfold Pipeline.ΦA; rw [scopedRest_split]
  iintro ⟨⟨HS, Hoth⟩, Hg⟩
  isplitl [HS Hoth]
  · isplitl [HS]
    · iexists _; rw [← owns_whole]; iexact HS
    iexact Hoth
  iexact Hg

end Cert.KernelIdeal.PassOne

end
-- ==== Proof.PassTwoIdeal.lean ====
/-
  The second pass of the two-layer graph convolution, as a pipeline over 25 row blocks of 400 rows: at block `t` the body
  holds the whole hidden array (10000×64, resident), the bias row (1×64, resident) and rows 400·t … 400·t+399 of the
  adjacency matrix (400×10000), and stores into the output block (400×64) the row-wise log-softmax of
  `adj_block · hidden + bias`. Nothing is carried from one block to the next: what the output's staging buffer holds after the
  body is one function of the three input blocks. Stated at any float instance and at any contents `V` of the core's
  buffers on entry.
-/
import proofs.«125529_g13657996001618_cont_week2b_1100_3_alg».proof.Proof.Gen.KernelIdeal.Launch
import proofs.«125529_g13657996001618_cont_week2b_1100_3_alg».proof.Proof.Gen.KernelIdeal.Skeleton
import proofs.«125529_g13657996001618_cont_week2b_1100_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassTwo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the pass finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every row block, fetched there or kept from the first. -/
theorem before_hidden_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_bias_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_adj_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer is read or written whole -/

abbrev rHid : Rect S10000x64 := Rect.unit (s := S10000x64) ![0, 0] S10000x64.size inb_S10000x64_S10000x64_0_0
abbrev rBias : Rect S1x64 := Rect.unit (s := S1x64) ![0, 0] S1x64.size inb_S1x64_S1x64_0_0
abbrev rAdj : Rect S400x10000 := Rect.unit (s := S400x10000) ![0, 0] S400x10000.size inb_S400x10000_S400x10000_0_0
abbrev rOut : Rect S400x64 := Rect.unit (s := S400x64) ![0, 0] S400x64.size inb_S400x64_S400x64_0_0

/-- What the body leaves in the output block: its one whole store of the row-wise log-softmax payload of the three loads. -/
def outBlock (hid : Vec F S10000x64 .f32) (bias : Vec F S1x64 .f32) (adj : Vec F S400x10000 .f32) : Vec F S400x64 .f32 :=
  View.canon [⟨rOut, k1_pay1 (View.ld adj rAdj) (View.ld hid rHid) (View.ld bias rBias)⟩]

/-- The one store covers the block. -/
theorem outBlock_cover (p0 : Vec F S400x64 .f32) (y : S400x64.Idx) :
    ∃ pc ∈ ([⟨rOut, p0⟩] : List (View.Piece (Elt F) S400x64 .f32)), y ∈ pc.1.set :=
  View.cover_of_tiled [⟨rOut, p0⟩] S400x64.size (by rfl) y

set_option maxHeartbeats 1000000 in
/-- The body on whole staging memrefs: the inputs are kept, the output block ends at `outBlock` of them. -/
theorem body_triple (c : Dev nD) (E : Set ℕ) (i : grid1.Coords) (arg1 : Memref sig .tc .vmem S10000x64 .f32) (harg1 : arg1.IsWhole) (arg2 : Memref sig .tc .vmem S1x64 .f32) (harg2 : arg2.IsWhole)
    (arg3 : Memref sig .tc .vmem S400x10000 .f32) (harg3 : arg3.IsWhole) (arg4 : Memref sig .tc .vmem S400x64 .f32) (harg4 : arg4.IsWhole)
    (x0 : Vec F S10000x64 .f32) (x1 : Vec F S1x64 .f32) (x2 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc1__gc2_body i arg1 harg1 arg2 harg2 arg3 harg3 arg4 harg4) K := by
  simp only [cc1__gc2_body_eq_skeleton]; unfold cc1__gc2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The proof data of the pass -/

/-- On core `c`: the arrays as the pass finds them; after the body at row block `t` each input's buffer still at its block and
    the output's at `outBlock` of the three; the invariant is the scoped rest and the generator register, untouched. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => outBlock (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]
theorem after_hidden (c : Dev nD) (t : Fin cfg1.N) : (dat V c).after 0 t = blockAt V c 0 t := by dsimp only [dat]
theorem after_bias (c : Dev nD) (t : Fin cfg1.N) : (dat V c).after 1 t = blockAt V c 1 t := by dsimp only [dat]
theorem after_adj (c : Dev nD) (t : Fin cfg1.N) : (dat V c).after 2 t = blockAt V c 2 t := by dsimp only [dat]
theorem after_out (c : Dev nD) (t : Fin cfg1.N) :
    (dat V c).after 3 t = outBlock (blockAt V c 0 t) (blockAt V c 1 t) (blockAt V c 2 t) := by dsimp only [dat]

theorem before_hidden (c : Dev nD) (t : Fin cfg1.N) (d) : (dat V c).before 0 t d = blockAt V c 0 t :=
  before_hidden_of V (dat V c) (dat_A V c 0) (after_hidden V c) t d
theorem before_bias (c : Dev nD) (t : Fin cfg1.N) (d) : (dat V c).before 1 t d = blockAt V c 1 t :=
  before_bias_of V (dat V c) (dat_A V c 1) (after_bias V c) t d
theorem before_adj (c : Dev nD) (t : Fin cfg1.N) (d) : (dat V c).before 2 t d = blockAt V c 2 t :=
  before_adj_of V (dat V c) (dat_A V c 2) (after_adj V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_hidden, before_bias, before_adj]
  rw [show (dat V c).Φ t.succ = (dat V c).Φ t.castSucc from rfl,
    show (dat V c).owesAt () t.succ = (dat V c).owesAt () t.castSucc from rfl,
    after_hidden, after_bias, after_adj, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact body_at V c t

end Cert.KernelIdeal.PassTwo

end
-- ==== Proof.TwoPassesIdeal.lean ====
/-
  The whole program as three segments — the two host reshapes of the bias vectors, the first pass, the second pass — and
  its run: the contents of every unscoped buffer at each boundary (after the reshapes; after the first pass, whose output
  array holds what its 25 write-backs leave; after the second pass likewise), each pass as a segment entered from one
  boundary's contents and left at the next, and the run itself: every weakly fair execution terminates, and at the end
  every unscoped buffer holds the last boundary's contents. Both the frame claim (the arguments end as launched) and the
  result's value are read off this one run. Any float instance.
-/
import proofs.«125529_g13657996001618_cont_week2b_1100_3_alg».proof.Proof.PassOneIdeal
import proofs.«125529_g13657996001618_cont_week2b_1100_3_alg».proof.Proof.PassTwoIdeal

set_option maxRecDepth 16384

noncomputable section

namespace Cert.KernelIdeal.TwoPasses

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- After the two reshapes (the first pass's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first pass: its arrays at what the pipeline leaves, every other buffer as entered. -/
def W2 (c : Dev nD) : Valuation τ sig (Elt F) :=
  Pipeline.withArrays spec0 c (W1 m c) fun w => (PassOne.dat (V1 m) c).arrAt w cfg0.N
theorem W2_arr (c : Dev nD) (w : Fin cfg0.W) :
    W2 m c (Proc.devRef .tc (Pipeline.arrRef spec0 w)) = (PassOne.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit_arrays1 (c : Dev nD) (w : Fin cfg0.W) : (PassOne.dat (V1 m) c).arrAt w cfg0.N = V2 m c (Pipeline.arrRef spec0 w) :=
  (W2_arr m c w).symm
theorem exit_rest1 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second pass, which is entered from there. -/
def W3 (c : Dev nD) : Valuation τ sig (Elt F) :=
  Pipeline.withArrays spec1 c (W2 m c) fun w => (PassTwo.dat (V2 m) c).arrAt w cfg1.N
theorem W3_arr (c : Dev nD) (w : Fin cfg1.W) :
    W3 m c (Proc.devRef .tc (Pipeline.arrRef spec1 w)) = (PassTwo.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit_arrays2 (c : Dev nD) (w : Fin cfg1.W) : (PassTwo.dat (V2 m) c).arrAt w cfg1.N = V3 m c (Pipeline.arrRef spec1 w) :=
  (W3_arr m c w).symm
theorem exit_rest2 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm p) c
  | ⟨0, _⟩ => fun c => PassOne.dat (V1 m) c
  | ⟨1, _⟩ => fun c => PassTwo.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Ride (c : Dev nD) : sProp 𝕄 := iprop((∃ r, prngReg c r) ∗ ∃ W, owes (c : Thread nD τ) (0 : CellTallies nD τ sig Unit) W)

theorem reshapes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W3 m c) ∗ ∃ r, prngReg c r)

/-- The reshapes as a segment. -/
abbrev reshapeSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp reshapes_fresh) op h) (W0 m) Ride

/-! ## The passes as segments -/

set_option backward.isDefEq.respectTransparency.types false in
/-- The first pass: entered from every unscoped buffer at `W1`, left at `W2`. The generator register goes into the pass's
    invariant and comes back; the scratch's carried contents are forgotten at the end. -/
def passOneSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (V1 m) c).loose
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (PassOne.dat (V1 m) c).Φ 0 from rfl]
    refine (?_ : _ ⊢ Pipeline.ΦA spec0 c).trans (PassOne.Phi_in (V1 m) c)
    unfold Pipeline.ΦA
    iintro ⟨Hp, -, Hr⟩
    isplitl [Hr]; · iexact Hr
    iexact Hp
  hout c := by
    rw [Pipeline.ownSems0_none, show (pdats m 0 c).Φ (Fin.last _) = (PassOne.dat (V1 m) c).Φ (Fin.last cfg0.N) from rfl]
    refine (PassOne.Phi_out (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from `W2`, left at `W3`; its invariant is the scoped rest and the generator register, untouched. -/
def passTwoSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (V2 m) c).loose
  hwaits := Pipeline.hwaits_of_owed_zero _ _ _ _ L lv 1 fun _ _ => rfl
  pre c := iprop(StableHlo.held (c : Thread nD τ) (Pipeline.ucRefs τ sig) (W2 m c) ∗ Ride c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit_arrays2 m c) (exit_rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (reshapeSeg m), .region (passOneSeg m), .region (passTwoSeg m) ]

theorem main_is_segs (c : Dev nD) : main (F := F) c = Pipeline.Seg.run (segs m) := (main_chain c).trans (by chain_rfl)

set_option backward.isDefEq.respectTransparency.types false in
/-- THE RUN. From any memory with zero counters every weakly fair execution of the program terminates, faulting nowhere, and
    in the final memory every unscoped buffer of every core holds the last boundary's contents `W3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.TwoPasses

end
-- ==== Proof.FramesIdeal.lean ====
/-
  The frame claim read off the run of the two passes: no host operation writes an argument array, each pass reads the ones it
  stages through input windows (an input window's array is never written back) and bypasses the others, so at the last boundary
  every argument's buffer still holds its launch contents. Also named here: what the result's buffer holds at the end, namely what
  the second pass's 25 write-backs leave in its output array. Any float instance.
-/
import proofs.«125529_g13657996001618_cont_week2b_1100_3_alg».proof.Proof.TwoPassesIdeal
import proofs.«125529_g13657996001618_cont_week2b_1100_3_alg».proof.Proof.Gen.KernelIdeal.Regions

set_option maxRecDepth 16384

noncomputable section

namespace Cert.KernelIdeal.TwoPasses

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ)

theorem kept_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((PassOne.dat (V1 m) c).arrAt_in 0 rfl _).trans (PassOne.dat_A (V1 m) c 0))
    _ = m ((c : Thread nD τ).loc main_arg0) := Gen.V1_of m c main_arg0 (by decide)
theorem kept_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((PassTwo.dat (V2 m) c).arrAt_in 2 rfl _).trans (PassTwo.dat_A (V2 m) c 2))
    _ = W1 m c (Proc.devRef .tc main_arg1) := (W2_arr m c 4).trans (((PassOne.dat (V1 m) c).arrAt_in 4 rfl _).trans (PassOne.dat_A (V1 m) c 4))
    _ = m ((c : Thread nD τ).loc main_arg1) := Gen.V1_of m c main_arg1 (by decide)
theorem kept_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((PassOne.dat (V1 m) c).arrAt_in 1 rfl _).trans (PassOne.dat_A (V1 m) c 1))
    _ = m ((c : Thread nD τ).loc main_arg2) := Gen.V1_of m c main_arg2 (by decide)
theorem kept_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem kept_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 3).trans (((PassOne.dat (V1 m) c).arrAt_in 3 rfl _).trans (PassOne.dat_A (V1 m) c 3))
    _ = m ((c : Thread nD τ).loc main_arg4) := Gen.V1_of m c main_arg4 (by decide)
theorem kept_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)

/-- THE FRAME: every weakly fair execution terminates, nothing faulting, and the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c)⟩) (run_all m ρ)

/-- The result's buffer at the last boundary: the second pass's output array after its write-backs. -/
theorem result_buffer (c : Dev nD) : W3 m c (Proc.devRef .tc main_v0) = (PassTwo.dat (V2 m) c).arrAt 3 cfg1.N := W3_arr m c 3

/-- The second pass finds the hidden array where the first pass's write-backs left it, -/
theorem hidden_buffer (c : Dev nD) : V2 m c main_call0_v2 = (PassOne.dat (V1 m) c).arrAt 5 cfg0.N := W2_arr m c 5
/-- the adjacency matrix as launched, -/
theorem adj_at_pass_two (c : Dev nD) : V2 m c main_arg1 = m ((c : Thread nD τ).loc main_arg1) :=
  ((W2_arr m c 4).trans (((PassOne.dat (V1 m) c).arrAt_in 4 rfl _).trans (PassOne.dat_A (V1 m) c 4))).trans (Gen.V1_of m c main_arg1 (by decide))
/-- and the second bias row where the reshape put it. -/
theorem bias2_at_pass_two (c : Dev nD) : V2 m c main_call0_v1 = V1 m c main_call0_v1 := W2_of_ne m c main_call0_v1 (by decide)
/-- The first pass finds the arguments it stages as launched. -/
theorem feat_at_pass_one (c : Dev nD) : V1 m c main_arg0 = m ((c : Thread nD τ).loc main_arg0) := Gen.V1_of m c main_arg0 (by decide)
theorem adj_at_pass_one (c : Dev nD) : V1 m c main_arg1 = m ((c : Thread nD τ).loc main_arg1) := Gen.V1_of m c main_arg1 (by decide)
theorem w1_at_pass_one (c : Dev nD) : V1 m c main_arg2 = m ((c : Thread nD τ).loc main_arg2) := Gen.V1_of m c main_arg2 (by decide)
theorem w2_at_pass_one (c : Dev nD) : V1 m c main_arg4 = m ((c : Thread nD τ).loc main_arg4) := Gen.V1_of m c main_arg4 (by decide)

end Cert.KernelIdeal.TwoPasses

end
-- ==== Proof.PassOneBlocksIdeal.lean ====
/-
  The first pass's blocks read against its arrays. The four resident windows' blocks are their whole arrays at every row block;
  the adjacency window's block `t` is rows 400·t … 400·t+399; the output window's block `t` likewise, and the 25 output blocks
  tile the 10000 rows. The stored pieces the two runs found are the printed payloads of the loaded blocks, so after every row
  block the output block holds `leaky(adj_block · scratch + b1) · W2` and the scratch, from the first block on, the support of
  the whole feature matrix. Any float instance.
-/
import proofs.«125529_g13657996001618_cont_week2b_1100_3_alg».proof.Proof.PassOneIdeal
import Idealize.ShloMosaic.Lib.Pipeline.Value
import Idealize.ShloMosaic.Lib.ValueIdx

set_option maxRecDepth 16384

noncomputable section

namespace Cert.KernelIdeal.PassOne

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen ValueIdx

variable {F : FTy → Type} [FloatOps F]

variable (V : (c : Dev nD) → (b : Ref sig .tc) → Buf (Elt F) ((c : Thread nD τ).loc b))

theorem zero_offset : (![0, 0] : Fin 2 → Nat) = fun _ => 0 := funext fun a => by fin_cases a <;> rfl

/-! ## The found pieces are the printed payloads -/

theorem support_pieces (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i) (x0 : Vec F S10000x128 .f32) (x1 : Vec F S128x128 .f32) (x2 : Vec F S1x128 .f32) (x3 : Vec F S128x64 .f32) (x4 : Vec F S400x10000 .f32) :
    View.canon (runFirst c i arg1 harg1 arg2 harg2 arg3 harg3 arg4 harg4 arg5 harg5 arg6 harg6 arg7 harg7 hc x0 x1 x2 x3 x4).2.1 = k0_pay1 x0 x1 := by
  unfold runFirst
  dsimp only
  sl_unfold_words
  rw [View.canon_unit_zero zero_offset]
  simp only [View.readAt_eq_ld, harg1.read_unread, harg2.read_unread, View.ld_unit_zero (S := S10000x128) zero_offset, View.ld_unit_zero (S := S128x128) zero_offset]

theorem hidFirst_pieces (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : isFirst i) (x0 : Vec F S10000x128 .f32) (x1 : Vec F S128x128 .f32) (x2 : Vec F S1x128 .f32) (x3 : Vec F S128x64 .f32) (x4 : Vec F S400x10000 .f32) :
    View.canon (runFirst c i arg1 harg1 arg2 harg2 arg3 harg3 arg4 harg4 arg5 harg5 arg6 harg6 arg7 harg7 hc x0 x1 x2 x3 x4).1 = k0_pay2 x4 (k0_pay1 x0 x1) x2 x3 := by
  unfold runFirst
  dsimp only
  sl_unfold_words
  rw [View.canon_unit_zero zero_offset, View.readCov_unit_zero _ zero_offset]
  simp only [View.readAt_eq_ld, harg1.read_unread, harg2.read_unread, harg3.read_unread, harg4.read_unread, harg5.read_unread, View.ld_unit_zero (S := S10000x128) zero_offset, View.ld_unit_zero (S := S128x128) zero_offset, View.ld_unit_zero (S := S128x64) zero_offset, View.ld_unit_zero (S := S1x128) zero_offset, View.ld_unit_zero (S := S400x10000) zero_offset]

theorem hidLater_pieces (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x128 .f32) (harg7 : arg7.IsWhole) (hc : ¬isFirst i) (x0 : Vec F S10000x128 .f32) (x1 : Vec F S128x128 .f32) (x2 : Vec F S1x128 .f32) (x3 : Vec F S128x64 .f32) (x4 : Vec F S400x10000 .f32) (xs : Vec F S10000x128 .f32) :
    View.canon (runLater c i arg1 harg1 arg2 harg2 arg3 harg3 arg4 harg4 arg5 harg5 arg6 harg6 arg7 harg7 hc x0 x1 x2 x3 x4 xs).1 = k0_pay2 x4 xs x2 x3 := by
  unfold runLater
  dsimp only
  rw [View.canon_unit_zero zero_offset]
  simp only [View.readAt_eq_ld, harg3.read_unread, harg4.read_unread, harg5.read_unread, harg7.read_unread, View.ld_unit_zero (S := S10000x128) zero_offset, View.ld_unit_zero (S := S128x64) zero_offset, View.ld_unit_zero (S := S1x128) zero_offset, View.ld_unit_zero (S := S400x10000) zero_offset]

/-- From the first row block on the scratch holds the support payload of the feature and first-weight blocks. -/
theorem carried_eq (c : Dev nD) : carried V c = k0_pay1 (blockAt V c 0 t₀) (blockAt V c 1 t₀) := by
  unfold carried; exact support_pieces c _ _ _ _ _ _ _ _ _ _ _ _ _ _ _ _ _ _ _ _ _

/-- After the body at ANY row block the output block holds the hidden payload of the adjacency block, the carried scratch, the
    bias row and the second weights. -/
theorem hidAt_eq (c : Dev nD) (t : Fin cfg0.N) :
    hidAt V c t = k0_pay2 (blockAt V c 4 t) (carried V c) (blockAt V c 2 t) (blockAt V c 3 t) := by
  by_cases h : t.val = 0
  · obtain rfl : t = t₀ := Fin.ext h
    unfold hidAt; rw [dif_pos rfl, hidFirst_pieces, carried_eq]
  · unfold hidAt; rw [dif_neg h, hidLater_pieces]

/-! ## The printed index maps, decided over the grid -/

theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Block reads -/

/-- The resident windows' blocks are their whole arrays. -/
theorem feat_block (c : Dev nD) (t : Fin cfg0.N) : (blockAt V c 0 t : S10000x128.Idx → Elt F .f32) = V c main_arg0 := by
  obtain ⟨e0, e1, -⟩ := index_facts t
  funext y
  show V c main_arg0 (((cfg0.win 0).blk t).view.emb y) = V c main_arg0 y
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega
theorem w1_block (c : Dev nD) (t : Fin cfg0.N) : (blockAt V c 1 t : S128x128.Idx → Elt F .f32) = V c main_arg2 := by
  obtain ⟨-, -, e0, e1, -⟩ := index_facts t
  funext y
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega
theorem b1_block (c : Dev nD) (t : Fin cfg0.N) : (blockAt V c 2 t : S1x128.Idx → Elt F .f32) = V c main_call0_v0 := by
  obtain ⟨-, -, -, -, e0, e1, -⟩ := index_facts t
  funext y
  show V c main_call0_v0 (((cfg0.win 2).blk t).view.emb y) = V c main_call0_v0 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem w2_block (c : Dev nD) (t : Fin cfg0.N) : (blockAt V c 3 t : S128x64.Idx → Elt F .f32) = V c main_arg4 := by
  obtain ⟨-, -, -, -, -, -, e0, e1, -⟩ := index_facts t
  funext y
  show V c main_arg4 (((cfg0.win 3).blk t).view.emb y) = V c main_arg4 y
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Row `p` of the adjacency window's block `t` is row `400·t + p` of the matrix. -/
theorem adj_block (c : Dev nD) (t : Fin cfg0.N) (p : Fin 400) (k : Fin 10000) (hr : t.val * 400 + p.val < 10000) :
    (blockAt V c 4 t : S400x10000.Idx → Elt F .f32) (ix2 p k) = V c main_arg1 (ix2 ⟨t.val * 400 + p.val, hr⟩ k) := by
  obtain ⟨-, -, -, -, -, -, -, -, e0, e1, -⟩ := index_facts t
  show V c main_arg1 (((cfg0.win 4).blk t).view.emb (ix2 p k)) = V c main_arg1 (ix2 ⟨t.val * 400 + p.val, hr⟩ k)
  refine congrArg _ ?_
  funext a; apply Fin.ext
  match a with
  | ⟨0, _⟩ => show win0_4.index t (0 : Fin 2) * 400 + 1 * p.val = t.val * 400 + p.val; omega
  | ⟨1, _⟩ => show win0_4.index t (1 : Fin 2) * 10000 + 1 * k.val = k.val; omega

/-- A coordinate of the output window's block `t` sits at row `400·t + p` of the hidden array. -/
theorem hid_emb (t : Fin cfg0.N) (p : Fin 400) (q : Fin 64) (hr : t.val * 400 + p.val < 10000) :
    (((cfg0.win 5).blk t).view.emb (ix2 p q) : S10000x64.Idx) = ix2 ⟨t.val * 400 + p.val, hr⟩ q := by
  obtain ⟨-, -, -, -, -, -, -, -, -, -, e0, e1⟩ := index_facts t
  funext a; apply Fin.ext
  match a with
  | ⟨0, _⟩ => show win0_5.index t (0 : Fin 2) * 400 + 1 * p.val = t.val * 400 + p.val; omega
  | ⟨1, _⟩ => show win0_5.index t (1 : Fin 2) * 64 + 1 * q.val = q.val; omega

/-- Membership in the output window's block `t`, coordinate by coordinate. -/
theorem mem_hid_block (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_call0_v2).slice (win0_5.rect t)).set ↔ _
  rw [View.set_slice_whole, Rect.mem_set_unit]
  exact Iff.rfl

/-- The 25 output blocks tile the hidden array: row `r` is in block `r / 400`. -/
theorem hid_cover (i : S10000x64.Idx) :
    ∃ t : Fin cfg0.N, (cfg0.win 5).flush t = true ∧ i ∈ ((cfg0.win 5).blk t).view.set := by
  have hi0 : (i 0).val < 10000 := (i 0).isLt
  have hi1 : (i 1).val < 64 := (i 1).isLt
  have hN : cfg0.N = 25 := N_0
  refine ⟨⟨(i 0).val / 400, by rw [hN]; omega⟩, flush0_5 _, ?_⟩
  rw [mem_hid_block]
  obtain ⟨-, -, -, -, -, -, -, -, -, -, e0, e1⟩ := index_facts ⟨(i 0).val / 400, by rw [hN]; omega⟩
  intro a
  match a with
  | ⟨0, _⟩ => show win0_5.index _ (0 : Fin 2) * 400 ≤ (i 0).val ∧ (i 0).val < win0_5.index _ (0 : Fin 2) * 400 + 400; rw [e0]; dsimp only; omega
  | ⟨1, _⟩ => show win0_5.index _ (1 : Fin 2) * 64 ≤ (i 1).val ∧ (i 1).val < win0_5.index _ (1 : Fin 2) * 64 + 64; rw [e1]; omega

end Cert.KernelIdeal.PassOne

end
-- ==== Proof.Spec.lean ====
/-
  The two-layer graph convolution as a function of its six arguments, entry by entry, on the
  extended reals.

  With x : [10000,128], adj : [10000,10000], W1 : [128,128], b1 : [128], W2 : [128,64], b2 : [64]:
    support = x · W1
    hidden  = leaky (adj · support + b1) · W2          leaky h = h if h ≥ 0, else c · h
    result  = log_softmax (adj · hidden + b2) along each row.
  Row r of `hidden` and of `result` depends on `adj` only through row r of `adj`; `hidRow` and
  `outRow` are those rows as functions of that one row, so that a block of rows of `adj` determines
  the same block of rows of the result.

  The constant c is kept as the word both programs print (0x3E4CCCCD); it is never evaluated.
  The row maximum is the fold of `max` from the word of -∞, the row sum of exponentials a plain
  finite sum: the forms in which a lane reduction and a host reduction are both read.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- An `a × b` array of extended reals, indexed as the printed programs index a rank-2 vector. -/
abbrev Mat (a b : ℕ) := (⟨2, ![a, b]⟩ : Shape).Idx → EReal

/-- `x · W1`: entry (r, c) is the sum over k of x[r,k] · W1[k,c]. -/
def support (x : Mat 10000 128) (w : Mat 128 128) : Mat 10000 128 :=
  fun i => ∑ k : Fin 128, x (ix2 (i 0 : Fin 10000) k) * w (ix2 k (i 1 : Fin 128))

theorem support_apply (x : Mat 10000 128) (w : Mat 128 128) (r : Fin 10000) (c : Fin 128) :
    support x w (ix2 r c) = ∑ k : Fin 128, x (ix2 r k) * w (ix2 k c) := rfl

/-- The leaky rectifier: `h` where `h ≥ 0`, else the printed constant times `h`. -/
def leaky (h : EReal) : EReal :=
  Scalar.select (Ideal.cmp .oge h (Ideal.ofBits .f32 0x00000000#32)) h (Ideal.ofBits .f32 0x3E4CCCCD#32 * h)

/-- One entry of `adj · s + b` from the one row of `adj` it reads. -/
def affRow {n : ℕ} (arow : Fin 10000 → EReal) (s : Mat 10000 n) (b : Fin n → EReal) (j : Fin n) : EReal :=
  (∑ k : Fin 10000, arow k * s (ix2 k j)) + b j

/-- One row of `leaky (adj · s1 + b1) · W2`, from that row of `adj`. -/
def hidRow (arow : Fin 10000 → EReal) (s1 : Mat 10000 128) (b1 : Fin 128 → EReal) (w2 : Mat 128 64) (q : Fin 64) : EReal :=
  ∑ j : Fin 128, leaky (affRow arow s1 b1 j) * w2 (ix2 j q)

/-- The maximum of a row of 64 entries, folded from the word of -∞. -/
def rowMax (o : Fin 64 → EReal) : EReal :=
  (Finset.univ : Finset (Fin 64)).fold max (Ideal.ofBits .f32 0xFF800000#32) o

/-- log-softmax of a row of 64 entries: subtract the maximum, then the logarithm of the sum of
    the exponentials of what is left. -/
def logSoftmaxRow (o : Fin 64 → EReal) (q : Fin 64) : EReal :=
  (o q - rowMax o) - Ideal.log (∑ t : Fin 64, Ideal.exp (o t - rowMax o))

/-- One row of `log_softmax (adj · s2 + b2)`, from that row of `adj`. -/
def outRow (arow : Fin 10000 → EReal) (s2 : Mat 10000 64) (b2 : Fin 64 → EReal) (q : Fin 64) : EReal :=
  logSoftmaxRow (affRow arow s2 b2) q

/-- `leaky (adj · s1 + b1) · W2`. -/
def hidden (adj : Mat 10000 10000) (s1 : Mat 10000 128) (b1 : Fin 128 → EReal) (w2 : Mat 128 64) : Mat 10000 64 :=
  fun i => hidRow (fun k => adj (ix2 (i 0 : Fin 10000) k)) s1 b1 w2 (i 1 : Fin 64)

theorem hidden_apply (adj : Mat 10000 10000) (s1 : Mat 10000 128) (b1 : Fin 128 → EReal) (w2 : Mat 128 64)
    (r : Fin 10000) (q : Fin 64) :
    hidden adj s1 b1 w2 (ix2 r q) = hidRow (fun k => adj (ix2 r k)) s1 b1 w2 q := rfl

/-- `log_softmax (adj · s2 + b2)` along each row. -/
def normalized (adj : Mat 10000 10000) (s2 : Mat 10000 64) (b2 : Fin 64 → EReal) : Mat 10000 64 :=
  fun i => outRow (fun k => adj (ix2 (i 0 : Fin 10000) k)) s2 b2 (i 1 : Fin 64)

theorem normalized_apply (adj : Mat 10000 10000) (s2 : Mat 10000 64) (b2 : Fin 64 → EReal)
    (r : Fin 10000) (q : Fin 64) :
    normalized adj s2 b2 (ix2 r q) = outRow (fun k => adj (ix2 r k)) s2 b2 q := rfl

/-- The whole computation. -/
def result (x : Mat 10000 128) (adj : Mat 10000 10000) (w1 : Mat 128 128) (b1v : Fin 128 → EReal)
    (w2 : Mat 128 64) (b2v : Fin 64 → EReal) : Mat 10000 64 :=
  normalized adj (hidden adj (support x w1) b1v w2) b2v

end Cert.Gcn

end
-- ==== Proof.KernelPayloads.lean ====
/-
  The three stored values of the two kernel bodies, read at one entry at the ideal instance.

  Each body stores a whole block computed from the blocks it loaded.  A matrix product into a zero
  accumulator is, at entry (p, q), the sum over the contracted coordinate of the products of the two
  operands' entries; a change of float format is the identity; a row of biases broadcast over the
  rows of a block reads that row; a lane reduction of a block reads one row of it.  So entry (p, q)
  of what pass 1 stores is `hidRow` of row p of the loaded block of the adjacency, and entry (p, q)
  of what pass 2 stores is `outRow` of that row.
-/
import proofs.«125529_g13657996001618_cont_week2b_1100_3_alg».proof.Proof.Spec
import proofs.«125529_g13657996001618_cont_week2b_1100_3_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators

namespace Cert.KernelIdeal.PayloadValue

open Cert.KernelIdeal Idealize.ShloMosaic Idealize.ShloMosaic.ValueIdx Cert.Gcn

/-! ## A product of two matrices read at an entry -/

/-- For dimension numbers that contract the left operand's columns with the right operand's rows,
    the sum over the contraction index at entry (p, q) is the sum over k of l[p,k] · r[k,q].  The
    four coordinate facts are what the dimension numbers compute to. -/
theorem dot_sum {a b c : ℕ} (D : DotDims ⟨2, ![a, b]⟩ ⟨2, ![b, c]⟩ ⟨2, ![a, c]⟩)
    (hr : D.contr.rank = 1) (hs : D.contr.size ⟨0, by omega⟩ = b)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : Mat a b) (r : Mat b c) (p : Fin a) (q : Fin c) :
    ∑ k : D.contr.Idx, l (D.lhsIdx (ix2 p q) k) * r (D.rhsIdx (ix2 p q) k)
      = ∑ k : Fin b, l (ix2 p k) * r (ix2 k q) := by
  rw [← Equiv.sum_comp (contrEquiv1 D b hr hs).symm]
  refine Finset.sum_congr rfl fun k _ => ?_
  have hk := contrEquiv1_symm_val D b hr hs k
  have el : D.lhsIdx (ix2 p q) ((contrEquiv1 D b hr hs).symm k) = ix2 p k := funext fun x => Fin.ext (by
    match x with
    | ⟨0, _⟩ => exact hl0 _ _
    | ⟨1, _⟩ => exact (hl1 _ _).trans hk)
  have er : D.rhsIdx (ix2 p q) ((contrEquiv1 D b hr hs).symm k) = ix2 k q := funext fun x => Fin.ext (by
    match x with
    | ⟨0, _⟩ => exact (hr0 _ _).trans hk
    | ⟨1, _⟩ => exact hr1 _ _)
  rw [el, er]

/-- The product x · W1 of pass 1's first step, at an entry. -/
theorem sum_xw (l : Mat 10000 128) (r : Mat 128 128) (p : Fin 10000) (q : Fin 128) :
    ∑ k : dot_S10000x128_S128x128_S10000x128_1_0_0_1_n_n.contr.Idx, l (dot_S10000x128_S128x128_S10000x128_1_0_0_1_n_n.lhsIdx (ix2 p q) k) * r (dot_S10000x128_S128x128_S10000x128_1_0_0_1_n_n.rhsIdx (ix2 p q) k)
      = ∑ k : Fin 128, l (ix2 p k) * r (ix2 k q) :=
  dot_sum dot_S10000x128_S128x128_S10000x128_1_0_0_1_n_n rfl rfl
    (fun i q => by
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl)
    (fun i q => dot_S10000x128_S128x128_S10000x128_1_0_0_1_n_n.lhsIdx_val_of_single rfl i q)
    (fun i q => dot_S10000x128_S128x128_S10000x128_1_0_0_1_n_n.rhsIdx_val_of_single rfl i q)
    (fun i q => by
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
    l r p q

/-- A block of rows of the adjacency times the support, at an entry. -/
theorem sum_adj_support (l : Mat 400 10000) (r : Mat 10000 128) (p : Fin 400) (q : Fin 128) :
    ∑ k : dot_S400x10000_S10000x128_S400x128_1_0_0_1_n_n.contr.Idx, l (dot_S400x10000_S10000x128_S400x128_1_0_0_1_n_n.lhsIdx (ix2 p q) k) * r (dot_S400x10000_S10000x128_S400x128_1_0_0_1_n_n.rhsIdx (ix2 p q) k)
      = ∑ k : Fin 10000, l (ix2 p k) * r (ix2 k q) :=
  dot_sum dot_S400x10000_S10000x128_S400x128_1_0_0_1_n_n rfl rfl
    (fun i q => by
      unfold DotDims.lhsIdx
      rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
      rfl)
    (fun i q => dot_S400x10000_S10000x128_S400x128_1_0_0_1_n_n.lhsIdx_val_of_single rfl i q)
    (fun i q => dot_S400x10000_S10000x128_S400x128_1_0_0_1_n_n.rhsIdx_val_of_single rfl i q)
    (fun i q => by
      unfold DotDims.rhsIdx
      rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
      rfl)
    l r p q

/-- A block of activations times W2, at an entry. -/
theorem sum_act_w2 (l : Mat 400 128) (r : Mat 128 64) (p : Fin 400) (q : Fin 64) :
    ∑ k : dot_S400x128_S128x64_S400x64_1_0_0_1_n_n.contr.Idx, l (dot_S400x128_S128x64_S400x64_1_0_0_1_n_n.lhsIdx (ix2 p q) k) * r (dot_S400x128_S128x64_S400x64_1_0_0_1_n_n.rhsIdx (ix2 p q) k)
      = ∑ k : Fin 128, l (ix2 p k) * r (ix2 k q) :=
  dot_sum dot_S400x128_S128x64_S400x64_1_0_0_1_n_n rfl rfl
    (fun i q => by
      unfold DotDims.lhsIdx
      rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
      rfl)
    (fun i q => dot_S400x128_S128x64_S400x64_1_0_0_1_n_n.lhsIdx_val_of_single rfl i q)
    (fun i q => dot_S400x128_S128x64_S400x64_1_0_0_1_n_n.rhsIdx_val_of_single rfl i q)
    (fun i q => by
      unfold DotDims.rhsIdx
      rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
      rfl)
    l r p q

/-- A block of rows of the adjacency times the hidden layer, at an entry. -/
theorem sum_adj_hidden (l : Mat 400 10000) (r : Mat 10000 64) (p : Fin 400) (q : Fin 64) :
    ∑ k : dot_S400x10000_S10000x64_S400x64_1_0_0_1_n_n.contr.Idx, l (dot_S400x10000_S10000x64_S400x64_1_0_0_1_n_n.lhsIdx (ix2 p q) k) * r (dot_S400x10000_S10000x64_S400x64_1_0_0_1_n_n.rhsIdx (ix2 p q) k)
      = ∑ k : Fin 10000, l (ix2 p k) * r (ix2 k q) :=
  dot_sum dot_S400x10000_S10000x64_S400x64_1_0_0_1_n_n rfl rfl
    (fun i q => by
      unfold DotDims.lhsIdx
      rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
      rfl)
    (fun i q => dot_S400x10000_S10000x64_S400x64_1_0_0_1_n_n.lhsIdx_val_of_single rfl i q)
    (fun i q => dot_S400x10000_S10000x64_S400x64_1_0_0_1_n_n.rhsIdx_val_of_single rfl i q)
    (fun i q => by
      unfold DotDims.rhsIdx
      rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
      rfl)
    l r p q

/-! ## Column layouts: one value per row, spread over the row -/

section Column
variable {α : Type}

/-- An `[a, 1]` array broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Column

/-- Row `p` of a rank-2 array with column `k` put back is the entry (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane maximum of a block, at row `p`: the fold of `max` over that row from the word of -∞. -/
theorem rowMax_block (v : FVec Ideal S400x64 .f32) (h : S400x64.Reduces [1] S400) (hφ : FKind.Formats .f32)
    (hacc : (0xFF800000#32 : BitVec 32) = FKind.maximumf.neutral .f32 hφ) (p : Fin 400) :
    multiReduction .maximumf [1] S400 v 0xFF800000#32 h hφ hacc (ix1 p) = rowMax (fun t => v (ix2 p t)) := by
  rw [Ideal.multiReduction_maximumf_single]
  unfold rowMax
  have hf : (v ∘ h.lift (ix1 p)) = fun k : Fin 64 => v (ix2 p k) := funext fun k => congrArg v (lift_row h p k)
  exact congrArg (fun f => Finset.fold max (Ideal.ofBits .f32 0xFF800000#32) f (Finset.univ : Finset (Fin 64))) hf

/-- The lane sum of a block, at row `p`: the sum over that row. -/
theorem rowSum_block (v : FVec Ideal S400x64 .f32) (h : S400x64.Reduces [1] S400) (hφ : FKind.Formats .f32)
    (hacc : (0x00000000#32 : BitVec 32) = FKind.add.neutral .f32 hφ) (p : Fin 400) :
    multiReduction .add [1] S400 v 0x00000000#32 h hφ hacc (ix1 p) = ∑ t : Fin 64, v (ix2 p t) := by
  rw [Ideal.multiReduction_add_single]
  exact Finset.sum_congr rfl fun k _ => congrArg v (lift_row h p k)

/-! ## The affine step `adj_blk · s + b` at an entry -/

/-- Pass 1's pre-activation: entry (p, j) of a block of rows of the adjacency times the support plus
    the row of biases is the affine form of row `p` of the block. -/
theorem aff_hidden (a : FVec Ideal S400x10000 .f32) (s1 : FVec Ideal S10000x128 .f32) (b : FVec Ideal S1x128 .f32)
    (hb : FTy.bits .bf16 < FTy.bits .f32) (hc : S1x128.ShapeCasts S1x128) (hbr : S1x128.Broadcasts S400x128)
    (p : Fin 400) (j : Fin 128) :
    addf (matmul dot_S400x10000_S10000x128_S400x128_1_0_0_1_n_n none (truncf .bf16 a hb) (truncf .bf16 s1 hb) (constant S400x128 .f32 0x00000000#32))
        (broadcastTo S400x128 (shapeCast S1x128 b hc) hbr) (ix2 p j)
      = affRow (fun k => a (ix2 p k)) s1 (fun j => b (ix2 0 j)) j := by
  rw [addf_apply]
  unfold affRow
  refine congrArg₂ (· + ·) ?_ ?_
  · refine (Ideal.matmul_constant_zero_apply dot_S400x10000_S10000x128_S400x128_1_0_0_1_n_n none _ _ (ix2 p j)).trans ?_
    exact sum_adj_support _ _ p j
  · refine (broadcastTo_1b_ab_apply _ hbr p j).trans ?_
    exact congrFun (shapeCast_self b hc) _

/-- Pass 2's logits: the same with the hidden layer and the second row of biases. -/
theorem aff_out (a : FVec Ideal S400x10000 .f32) (s2 : FVec Ideal S10000x64 .f32) (b : FVec Ideal S1x64 .f32)
    (hb : FTy.bits .bf16 < FTy.bits .f32) (hc0 : S10000x64.ShapeCasts S10000x64) (hc : S1x64.ShapeCasts S1x64)
    (hbr : S1x64.Broadcasts S400x64) (p : Fin 400) (j : Fin 64) :
    addf (matmul dot_S400x10000_S10000x64_S400x64_1_0_0_1_n_n none (truncf .bf16 a hb) (truncf .bf16 (shapeCast S10000x64 s2 hc0) hb)
          (constant S400x64 .f32 0x00000000#32))
        (broadcastTo S400x64 (shapeCast S1x64 b hc) hbr) (ix2 p j)
      = affRow (fun k => a (ix2 p k)) s2 (fun j => b (ix2 0 j)) j := by
  rw [addf_apply, shapeCast_self s2 hc0]
  unfold affRow
  refine congrArg₂ (· + ·) ?_ ?_
  · refine (Ideal.matmul_constant_zero_apply dot_S400x10000_S10000x64_S400x64_1_0_0_1_n_n none _ _ (ix2 p j)).trans ?_
    exact sum_adj_hidden _ _ p j
  · refine (broadcastTo_1b_ab_apply _ hbr p j).trans ?_
    exact congrFun (shapeCast_self b hc) _

/-! ## log-softmax of a block, row by row -/

/-- A block minus its lane maximum spread back over the lanes, then minus the logarithm of the lane
    sum of the exponentials spread back: at (p, q), log-softmax of row `p` at `q`. -/
theorem logSoftmax_block (o : FVec Ideal S400x64 .f32) (h : S400x64.Reduces [1] S400) (hφ : FKind.Formats .f32)
    (hm : (0xFF800000#32 : BitVec 32) = FKind.maximumf.neutral .f32 hφ)
    (hz : (0x00000000#32 : BitVec 32) = FKind.add.neutral .f32 hφ)
    (hc : S400.ShapeCasts S400x1) (hb : S400x1.Broadcasts S400x64) (p : Fin 400) (q : Fin 64) :
    subf (subf o (broadcastTo S400x64 (shapeCast S400x1 (multiReduction .maximumf [1] S400 o 0xFF800000#32 h hφ hm) hc) hb))
        (broadcastTo S400x64 (log (shapeCast S400x1 (multiReduction .add [1] S400
          (exp (subf o (broadcastTo S400x64 (shapeCast S400x1 (multiReduction .maximumf [1] S400 o 0xFF800000#32 h hφ hm) hc) hb)))
          0x00000000#32 h hφ hz) hc)) hb) (ix2 p q)
      = logSoftmaxRow (fun t => o (ix2 p t)) q := by
  have he : ∀ t : Fin 64,
      subf o (broadcastTo S400x64 (shapeCast S400x1 (multiReduction .maximumf [1] S400 o 0xFF800000#32 h hφ hm) hc) hb) (ix2 p t)
        = o (ix2 p t) - rowMax (fun t => o (ix2 p t)) := fun t => by
    rw [subf_apply]
    refine congrArg (o (ix2 p t) - ·) ?_
    refine (broadcastTo_a1_ab_apply _ hb p t).trans ?_
    refine (shapeCast_a_a1_apply _ hc p 0).trans ?_
    exact rowMax_block o h hφ hm p
  rw [subf_apply, he q]
  unfold logSoftmaxRow
  refine congrArg ((o (ix2 p q) - rowMax (fun t => o (ix2 p t))) - ·) ?_
  refine (broadcastTo_a1_ab_apply _ hb p q).trans ?_
  show Ideal.log (shapeCast S400x1 _ hc (ix2 p (0 : Fin 1))) = _
  refine congrArg Ideal.log ?_
  refine (shapeCast_a_a1_apply _ hc p 0).trans ?_
  refine (rowSum_block _ h hφ hz p).trans ?_
  exact Finset.sum_congr rfl fun t _ => congrArg Ideal.exp (he t)

/-! ## The stored values -/

/-- Pass 1's first step stores `x · W1`. -/
theorem pay_support (x : Vec Ideal S10000x128 .f32) (w : Vec Ideal S128x128 .f32) :
    Gen.k0_pay1 (F := Ideal) x w = Cert.Gcn.support x w := by
  funext i
  obtain ⟨r, c, rfl⟩ : ∃ (r : Fin 10000) (c : Fin 128), i = ix2 r c := ⟨i 0, i 1, eq_ix2 i⟩
  unfold Gen.k0_pay1
  refine (congrFun (shapeCast_self _ _) _).trans ?_
  refine (Ideal.matmul_constant_zero_apply dot_S10000x128_S128x128_S10000x128_1_0_0_1_n_n none _ _ (ix2 r c)).trans ?_
  exact sum_xw _ _ r c

/-- Entry (p, q) of what pass 1 stores is `hidRow` of row `p` of the loaded block of the adjacency. -/
theorem pay_hidden (a : Vec Ideal S400x10000 .f32) (s1 : Vec Ideal S10000x128 .f32) (b : Vec Ideal S1x128 .f32)
    (w2 : Vec Ideal S128x64 .f32) (p : Fin 400) (q : Fin 64) :
    Gen.k0_pay2 (F := Ideal) a s1 b w2 (ix2 p q)
      = Cert.Gcn.hidRow (fun k => a (ix2 p k)) s1 (fun j => b (ix2 0 j)) w2 q := by
  unfold Gen.k0_pay2
  refine (Ideal.matmul_constant_zero_apply dot_S400x128_S128x64_S400x64_1_0_0_1_n_n none _ _ (ix2 p q)).trans ?_
  refine (sum_act_w2 _ _ p q).trans ?_
  unfold hidRow
  refine Finset.sum_congr rfl fun j _ => ?_
  exact congrArg (fun t => leaky t * w2 (ix2 j q)) (aff_hidden a s1 b _ _ _ p j)

/-- Entry (p, q) of what pass 2 stores is `outRow` of row `p` of the loaded block of the adjacency. -/
theorem pay_out (a : Vec Ideal S400x10000 .f32) (s2 : Vec Ideal S10000x64 .f32) (b : Vec Ideal S1x64 .f32)
    (p : Fin 400) (q : Fin 64) :
    Gen.k1_pay1 (F := Ideal) a s2 b (ix2 p q)
      = Cert.Gcn.outRow (fun k => a (ix2 p k)) s2 (fun j => b (ix2 0 j)) q := by
  unfold Gen.k1_pay1
  refine (logSoftmax_block _ _ _ _ _ _ _ p q).trans ?_
  unfold outRow
  exact congrArg (fun f => logSoftmaxRow f q) (funext fun t => aff_out a s2 b _ _ _ _ p t)

end Cert.KernelIdeal.PayloadValue

end
-- ==== Proof.PassOneValueIdeal.lean ====
/-
  What the first pass leaves in the hidden array, at the ideal instance: every write-back is its block of ONE function of the
  arrays the pass found on entry — `leaky(adj · (x · W1) + b1) · W2`, row by row — and the 25 blocks tile the array, so the array
  ends holding that function.
-/
import proofs.«125529_g13657996001618_cont_week2b_1100_3_alg».proof.Proof.PassOneBlocksIdeal
import proofs.«125529_g13657996001618_cont_week2b_1100_3_alg».proof.Proof.Spec
import proofs.«125529_g13657996001618_cont_week2b_1100_3_alg».proof.Proof.KernelPayloads

set_option maxRecDepth 16384

noncomputable section

namespace Cert.KernelIdeal.PassOne

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen ValueIdx

variable (V : (c : Dev nD) → (b : Ref sig .tc) → Buf (Elt Ideal) ((c : Thread nD τ).loc b))

/-- The hidden array as a function of the arrays the pass finds on entry (the bias through its reshaped row). -/
def hiddenOf (c : Dev nD) : S10000x64.Idx → EReal :=
  Cert.Gcn.hidden (V c main_arg1 : S10000x10000.Idx → EReal)
    (Cert.Gcn.support (V c main_arg0 : S10000x128.Idx → EReal) (V c main_arg2 : S128x128.Idx → EReal))
    (fun j => (V c main_call0_v0 : S1x128.Idx → EReal) (ix2 (0 : Fin 1) j)) (V c main_arg4 : S128x64.Idx → EReal)

/-- What row block `t` writes back is block `t` of that function. -/
theorem flushed_hidden (c : Dev nD) (t : Fin cfg0.N) :
    (dat V c).flushed 5 t = ((cfg0.win 5).blk t).view.read (Elt Ideal) (hiddenOf V c) := by
  show (cfg0.win 5).cut (grid0.coords t) ((dat V c).after 5 t) = _
  rw [after_hid, hidAt_eq, carried_eq, feat_block, w1_block, b1_block, w2_block, Cert.KernelIdeal.PayloadValue.pay_support]
  funext j
  obtain ⟨p, q, rfl⟩ : ∃ (p : Fin 400) (q : Fin 64), j = ix2 p q := ⟨j 0, j 1, eq_ix2 j⟩
  have hN : cfg0.N = 25 := N_0
  have hr : t.val * 400 + p.val < 10000 := by have := t.isLt; have := p.isLt; omega
  show k0_pay2 (F := Ideal) (blockAt V c 4 t) (Cert.Gcn.support (V c main_arg0) (V c main_arg2)) (V c main_call0_v0) (V c main_arg4) (ix2 p q)
    = hiddenOf V c (((cfg0.win 5).blk t).view.emb (ix2 p q))
  rw [Cert.KernelIdeal.PayloadValue.pay_hidden, hid_emb t p q hr]
  unfold hiddenOf
  rw [Cert.Gcn.hidden_apply]
  refine congrArg (fun a => Cert.Gcn.hidRow a _ _ _ q) ?_
  funext k
  exact adj_block V c t p k hr

/-- THE HIDDEN ARRAY after the pass. -/
theorem hidden_final (c : Dev nD) : (dat V c).arrAt 5 cfg0.N = hiddenOf V c :=
  (dat V c).arrAt_eq_of_cover 5 (hiddenOf V c) (fun t _ => flushed_hidden V c t) hid_cover

end Cert.KernelIdeal.PassOne

end
-- ==== Proof.PassTwoBlocksIdeal.lean ====
/-
  The second pass's blocks read against its arrays: the hidden array and the bias row are resident (their blocks are the whole
  arrays at every row block), the adjacency window's block `t` is rows 400·t … 400·t+399, the output window's block `t` likewise,
  and the 25 output blocks tile the 10000 rows. Any float instance.
-/
import proofs.«125529_g13657996001618_cont_week2b_1100_3_alg».proof.Proof.PassTwoIdeal
import Idealize.ShloMosaic.Lib.Pipeline.Value
import Idealize.ShloMosaic.Lib.ValueIdx

set_option maxRecDepth 16384

noncomputable section

namespace Cert.KernelIdeal.PassTwo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen ValueIdx

variable {F : FTy → Type} [FloatOps F]

variable (V : (c : Dev nD) → (b : Ref sig .tc) → Buf (Elt F) ((c : Thread nD τ).loc b))

theorem zero_offset : (![0, 0] : Fin 2 → Nat) = fun _ => 0 := funext fun a => by fin_cases a <;> rfl

/-- The output block after the body is the printed payload of the three input blocks. -/
theorem outBlock_eq (hid : Vec F S10000x64 .f32) (bias : Vec F S1x64 .f32) (adj : Vec F S400x10000 .f32) :
    outBlock hid bias adj = k1_pay1 adj hid bias := by
  unfold outBlock
  rw [View.canon_unit_zero zero_offset]
  simp only [View.ld_unit_zero (S := S10000x64) zero_offset, View.ld_unit_zero (S := S1x64) zero_offset, View.ld_unit_zero (S := S400x10000) zero_offset]

theorem index_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem hid_block (c : Dev nD) (t : Fin cfg1.N) : (blockAt V c 0 t : S10000x64.Idx → Elt F .f32) = V c main_call0_v2 := by
  obtain ⟨e0, e1, -⟩ := index_facts t
  funext y
  show V c main_call0_v2 (((cfg1.win 0).blk t).view.emb y) = V c main_call0_v2 y
  refine congrArg _ ?_
  funext a; apply Fin.ext
  match a with
  | ⟨0, _⟩ => show win1_0.index t (0 : Fin 2) * 10000 + 1 * (y 0).val = (y 0).val; omega
  | ⟨1, _⟩ => show win1_0.index t (1 : Fin 2) * 64 + 1 * (y 1).val = (y 1).val; omega
theorem bias_block (c : Dev nD) (t : Fin cfg1.N) : (blockAt V c 1 t : S1x64.Idx → Elt F .f32) = V c main_call0_v1 := by
  obtain ⟨-, -, e0, e1, -⟩ := index_facts t
  funext y
  show V c main_call0_v1 (((cfg1.win 1).blk t).view.emb y) = V c main_call0_v1 y
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega
theorem adj_block (c : Dev nD) (t : Fin cfg1.N) (p : Fin 400) (k : Fin 10000) (hr : t.val * 400 + p.val < 10000) :
    (blockAt V c 2 t : S400x10000.Idx → Elt F .f32) (ix2 p k) = V c main_arg1 (ix2 ⟨t.val * 400 + p.val, hr⟩ k) := by
  obtain ⟨-, -, -, -, e0, e1, -⟩ := index_facts t
  show V c main_arg1 (((cfg1.win 2).blk t).view.emb (ix2 p k)) = V c main_arg1 (ix2 ⟨t.val * 400 + p.val, hr⟩ k)
  refine congrArg _ ?_
  funext a; apply Fin.ext
  match a with
  | ⟨0, _⟩ => show win1_2.index t (0 : Fin 2) * 400 + 1 * p.val = t.val * 400 + p.val; omega
  | ⟨1, _⟩ => show win1_2.index t (1 : Fin 2) * 10000 + 1 * k.val = k.val; omega
theorem out_emb (t : Fin cfg1.N) (p : Fin 400) (q : Fin 64) (hr : t.val * 400 + p.val < 10000) :
    (((cfg1.win 3).blk t).view.emb (ix2 p q) : S10000x64.Idx) = ix2 ⟨t.val * 400 + p.val, hr⟩ q := by
  obtain ⟨-, -, -, -, -, -, e0, e1⟩ := index_facts t
  funext a; apply Fin.ext
  match a with
  | ⟨0, _⟩ => show win1_3.index t (0 : Fin 2) * 400 + 1 * p.val = t.val * 400 + p.val; omega
  | ⟨1, _⟩ => show win1_3.index t (1 : Fin 2) * 64 + 1 * q.val = q.val; omega
theorem mem_out_block (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v0).slice (win1_3.rect t)).set ↔ _
  rw [View.set_slice_whole, Rect.mem_set_unit]
  exact Iff.rfl
theorem out_cover (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 25 := N_1
  refine ⟨⟨(i 0).val / 400, by rw [hN]; omega⟩, flush1_3 _, ?_⟩
  rw [mem_out_block]
  obtain ⟨-, -, -, -, -, -, e0, e1⟩ := index_facts ⟨(i 0).val / 400, by rw [hN]; omega⟩
  intro a
  match a with
  | ⟨0, _⟩ => show win1_3.index _ (0 : Fin 2) * 400 ≤ (i 0).val ∧ (i 0).val < win1_3.index _ (0 : Fin 2) * 400 + 400; rw [e0]; dsimp only; omega
  | ⟨1, _⟩ => show win1_3.index _ (1 : Fin 2) * 64 ≤ (i 1).val ∧ (i 1).val < win1_3.index _ (1 : Fin 2) * 64 + 64; rw [e1]; omega

end Cert.KernelIdeal.PassTwo

end
-- ==== Proof.PassTwoValueIdeal.lean ====
/-
  What the second pass leaves in the result array, at the ideal instance: every write-back is its block of ONE function of the
  arrays the pass found on entry — the row-wise log-softmax of `adj · hidden + b2` — and the 25 blocks tile the array.
-/
import proofs.«125529_g13657996001618_cont_week2b_1100_3_alg».proof.Proof.PassTwoBlocksIdeal
import proofs.«125529_g13657996001618_cont_week2b_1100_3_alg».proof.Proof.Spec
import proofs.«125529_g13657996001618_cont_week2b_1100_3_alg».proof.Proof.KernelPayloads

set_option maxRecDepth 16384

noncomputable section

namespace Cert.KernelIdeal.PassTwo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen ValueIdx

variable (V : (c : Dev nD) → (b : Ref sig .tc) → Buf (Elt Ideal) ((c : Thread nD τ).loc b))

/-- The result array as a function of the arrays the pass finds on entry (the bias through its reshaped row). -/
def resultOf (c : Dev nD) : S10000x64.Idx → EReal :=
  Cert.Gcn.normalized (V c main_arg1 : S10000x10000.Idx → EReal) (V c main_call0_v2 : S10000x64.Idx → EReal)
    (fun j => (V c main_call0_v1 : S1x64.Idx → EReal) (ix2 (0 : Fin 1) j))

/-- What row block `t` writes back is block `t` of that function. -/
theorem flushed_result (c : Dev nD) (t : Fin cfg1.N) :
    (dat V c).flushed 3 t = ((cfg1.win 3).blk t).view.read (Elt Ideal) (resultOf V c) := by
  show (cfg1.win 3).cut (grid1.coords t) ((dat V c).after 3 t) = _
  rw [after_out, outBlock_eq, hid_block, bias_block]
  funext j
  obtain ⟨p, q, rfl⟩ : ∃ (p : Fin 400) (q : Fin 64), j = ix2 p q := ⟨j 0, j 1, eq_ix2 j⟩
  have hN : cfg1.N = 25 := N_1
  have hr : t.val * 400 + p.val < 10000 := by have := t.isLt; have := p.isLt; omega
  show k1_pay1 (F := Ideal) (blockAt V c 2 t) (V c main_call0_v2) (V c main_call0_v1) (ix2 p q)
    = resultOf V c (((cfg1.win 3).blk t).view.emb (ix2 p q))
  rw [Cert.KernelIdeal.PayloadValue.pay_out, out_emb t p q hr]
  unfold resultOf
  rw [Cert.Gcn.normalized_apply]
  refine congrArg (fun a => Cert.Gcn.outRow a _ _ q) ?_
  funext k
  exact adj_block V c t p k hr

/-- THE RESULT ARRAY after the pass. -/
theorem result_final (c : Dev nD) : (dat V c).arrAt 3 cfg1.N = resultOf V c :=
  (dat V c).arrAt_eq_of_cover 3 (resultOf V c) (fun t _ => flushed_result V c t) out_cover

end Cert.KernelIdeal.PassTwo

end
-- ==== Proof.KernelValueIdeal.lean ====
/-
  The idealized kernel's result as a function of its six arguments. The result's buffer ends at what the second pass's
  write-backs leave: the row-wise log-softmax of `adj · hidden + b2`, where `hidden` is what the first pass's write-backs left:
  `leaky(adj · (x · W1) + b1) · W2`. Both passes find the arguments as launched (nothing writes them) and the two bias vectors
  as rows (the host reshapes [128] → [1,128] and [64] → [1,64] move no entry). So the result is the two-layer graph convolution
  of the arguments, entry by entry.
-/
import proofs.«125529_g13657996001618_cont_week2b_1100_3_alg».proof.Proof.FramesIdeal
import proofs.«125529_g13657996001618_cont_week2b_1100_3_alg».proof.Proof.PassOneValueIdeal
import proofs.«125529_g13657996001618_cont_week2b_1100_3_alg».proof.Proof.PassTwoValueIdeal
import Idealize.ShloMosaic.Lib.StableHlo.Run

set_option maxRecDepth 16384

noncomputable section

namespace Cert.KernelIdeal.TwoPasses

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen ValueIdx

variable (m : (ℓ : Loc nD τ sig) → Buf (Elt Ideal) ℓ)

/-- The first bias row the passes read is the bias vector: entry `j` of the reshaped row is entry `j` of the vector. -/
theorem bias1_row (c : Dev nD) (j : Fin 128) :
    (V1 m c main_call0_v0 : S1x128.Idx → EReal) (ix2 (0 : Fin 1) j) = (m ((c : Thread nD τ).loc main_arg3) : S128.Idx → EReal) (ix1 j) := by
  have e : (V1 m c main_call0_v0 : S1x128.Idx → EReal)
      = fun i => shapeCast S1x128 (m ((c : Thread nD τ).loc main_arg3) : S128.Idx → EReal) shapeCasts_S128_S1x128 i := by
    dsimp only [V1, W1, hostOps0]; after_results; rfl
  rw [e]
  exact (shapeCast_addUnit_apply ![128] _ _ (ix2 (0 : Fin 1) j)).trans (congrArg _ (funext fun a => by match a with | ⟨0, _⟩ => rfl))

/-- The same for the second bias. -/
theorem bias2_row (c : Dev nD) (j : Fin 64) :
    (V1 m c main_call0_v1 : S1x64.Idx → EReal) (ix2 (0 : Fin 1) j) = (m ((c : Thread nD τ).loc main_arg5) : S64.Idx → EReal) (ix1 j) := by
  have e : (V1 m c main_call0_v1 : S1x64.Idx → EReal)
      = fun i => shapeCast S1x64 (m ((c : Thread nD τ).loc main_arg5) : S64.Idx → EReal) shapeCasts_S64_S1x64 i := by
    dsimp only [V1, W1, hostOps0]; after_results; rfl
  rw [e]
  exact (shapeCast_addUnit_apply ![64] _ _ (ix2 (0 : Fin 1) j)).trans (congrArg _ (funext fun a => by match a with | ⟨0, _⟩ => rfl))

/-- THE RESULT: at the last boundary the result's buffer holds the two-layer graph convolution of the launch contents. -/
theorem result_value (c : Dev nD) :
    W3 m c (Proc.devRef .tc main_v0)
      = Cert.Gcn.result (m ((c : Thread nD τ).loc main_arg0)) (m ((c : Thread nD τ).loc main_arg1)) (m ((c : Thread nD τ).loc main_arg2))
          (fun j => (m ((c : Thread nD τ).loc main_arg3) : S128.Idx → EReal) (ix1 j)) (m ((c : Thread nD τ).loc main_arg4))
          (fun j => (m ((c : Thread nD τ).loc main_arg5) : S64.Idx → EReal) (ix1 j)) := by
  have hb1 : (fun j : Fin 128 => (V1 m c main_call0_v0 : S1x128.Idx → EReal) (ix2 (0 : Fin 1) j))
      = fun j => (m ((c : Thread nD τ).loc main_arg3) : S128.Idx → EReal) (ix1 j) := funext fun j => bias1_row m c j
  have hb2 : (fun j : Fin 64 => (V2 m c main_call0_v1 : S1x64.Idx → EReal) (ix2 (0 : Fin 1) j))
      = fun j => (m ((c : Thread nD τ).loc main_arg5) : S64.Idx → EReal) (ix1 j) :=
    funext fun j => by rw [bias2_at_pass_two]; exact bias2_row m c j
  rw [result_buffer, PassTwo.result_final]
  unfold PassTwo.resultOf
  rw [hb2, adj_at_pass_two, hidden_buffer, PassOne.hidden_final]
  unfold PassOne.hiddenOf
  rw [hb1, feat_at_pass_one, adj_at_pass_one, w1_at_pass_one, w2_at_pass_one]
  rfl

/-- The idealized kernel's run with its result named: every weakly fair execution terminates, the result's buffer at the
    graph convolution of the arguments, the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v0)
        = Cert.Gcn.result (m ((c : Thread nD τ).loc main_arg0)) (m ((c : Thread nD τ).loc main_arg1)) (m ((c : Thread nD τ).loc main_arg2))
            (fun j => (m ((c : Thread nD τ).loc main_arg3) : S128.Idx → EReal) (ix1 j)) (m ((c : Thread nD τ).loc main_arg4))
            (fun j => (m ((c : Thread nD τ).loc main_arg5) : S64.Idx → EReal) (ix1 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0 (by decide))).trans (result_value m c),
     (h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c)⟩) (run_all m ρ)

end Cert.KernelIdeal.TwoPasses

end
-- ==== Proof.RefValue.lean ====
/-
  The reference's result, as its run states it, is the specification's `result` of the six
  arguments.

  The reference computes on whole arrays what the specification says entry by entry: two matrix
  products read as sums over the contracted coordinate, a bias vector broadcast over the rows,
  the leaky rectifier by a comparison and a select, the row maximum as a reduction from -∞
  (followed by one more maximum with -∞, which changes nothing), the row sum of exponentials as a
  reduction from 0.  Each stage is read at an entry and identified with the corresponding piece of
  the specification; the stages already identified enter the later ones as whole functions.
-/
import proofs.«125529_g13657996001618_cont_week2b_1100_3_alg».proof.Proof.Spec
import proofs.«125529_g13657996001618_cont_week2b_1100_3_alg».proof.Proof.RefRun
import proofs.«125529_g13657996001618_cont_week2b_1100_3_alg».proof.Proof.RefRead
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Gcn

/-- The contents of an f32 buffer of shape `s` at the ideal instance. -/
abbrev C (s : Shape) : Type := (⟨s, .f32⟩ : BufTy).Contents (Elt Ideal)

/-- A rank-2 index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- Row `p` of a rank-2 array with column `k` put back is the entry (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The first product is `x · W1`. -/
theorem ref_support (x0 : C S10000x128) (x2 : C S128x128) : val_main_v0 (F := Ideal) x0 x2 = support x0 x2 := by
  funext i
  obtain ⟨r, c, rfl⟩ : ∃ (r : Fin 10000) (c : Fin 128), i = ix2 r c := ⟨i 0, i 1, eq_ix2 i⟩
  rw [val_main_v0_apply, support_apply]
  refine Finset.sum_congr rfl fun k _ => ?_
  rw [idx2_eq (lidx_main_v0 (ix2 r c) k) r k rfl rfl, idx2_eq (ridx_main_v0 (ix2 r c) k) k c rfl rfl]

/-- The first layer before the rectifier, at an entry: the affine form of row `r` of the adjacency. -/
theorem ref_aff1 (x0 : C S10000x128) (x1 : C S10000x10000) (x2 : C S128x128) (x3 : C S128) (r : Fin 10000) (j : Fin 128) :
    val_main_v4 (F := Ideal) x0 x1 x2 x3 (ix2 r j)
      = affRow (fun k => x1 (ix2 r k)) (support x0 x2) (fun j => x3 (ix1 j)) j := by
  rw [val_main_v4_apply, val_main_v1_apply, ref_support, val_main_v3_apply, val_main_v2_apply, Ideal.addf_def]
  unfold affRow
  refine congrArg₂ (· + ·) (Finset.sum_congr rfl fun k _ => ?_) ?_
  · rw [idx2_eq (lidx_main_v1 (ix2 r j) k) r k rfl rfl, idx2_eq (ridx_main_v1 (ix2 r j) k) k j rfl rfl]
  · exact congrArg x3 (funext fun a => Fin.ext (by match a with | ⟨0, _⟩ => rfl))

/-- The rectified first layer, at an entry. -/
theorem ref_act (x0 : C S10000x128) (x1 : C S10000x10000) (x2 : C S128x128) (x3 : C S128) (r : Fin 10000) (j : Fin 128) :
    val_main_v9 (F := Ideal) x0 x1 x2 x3 (ix2 r j)
      = leaky (affRow (fun k => x1 (ix2 r k)) (support x0 x2) (fun j => x3 (ix1 j)) j) := by
  rw [val_main_v9_apply, val_main_v6_apply, val_main_v8_apply, val_main_v5_apply, val_main_v7_apply, val_main_cst_apply,
    val_main_cst_0_apply, ref_aff1]
  rfl

/-- The second product is the specification's hidden layer. -/
theorem ref_hidden (x0 : C S10000x128) (x1 : C S10000x10000) (x2 : C S128x128) (x3 : C S128) (x4 : C S128x64) :
    val_main_v10 (F := Ideal) x0 x1 x2 x3 x4 = hidden x1 (support x0 x2) (fun j => x3 (ix1 j)) x4 := by
  funext i
  obtain ⟨r, q, rfl⟩ : ∃ (r : Fin 10000) (q : Fin 64), i = ix2 r q := ⟨i 0, i 1, eq_ix2 i⟩
  rw [val_main_v10_apply, hidden_apply]
  unfold hidRow
  refine Finset.sum_congr rfl fun k _ => ?_
  rw [idx2_eq (lidx_main_v10 (ix2 r q) k) r k rfl rfl, idx2_eq (ridx_main_v10 (ix2 r q) k) k q rfl rfl, ref_act]

/-- The logits, at an entry: the affine form of row `r` of the adjacency over the hidden layer. -/
theorem ref_aff2 (x0 : C S10000x128) (x1 : C S10000x10000) (x2 : C S128x128) (x3 : C S128) (x4 : C S128x64) (x5 : C S64)
    (r : Fin 10000) (t : Fin 64) :
    val_main_v14 (F := Ideal) x0 x1 x2 x3 x4 x5 (ix2 r t)
      = affRow (fun k => x1 (ix2 r k)) (hidden x1 (support x0 x2) (fun j => x3 (ix1 j)) x4) (fun j => x5 (ix1 j)) t := by
  rw [val_main_v14_apply, val_main_v11_apply, ref_hidden, val_main_v13_apply, val_main_v12_apply, Ideal.addf_def]
  unfold affRow
  refine congrArg₂ (· + ·) (Finset.sum_congr rfl fun k _ => ?_) ?_
  · rw [idx2_eq (lidx_main_v11 (ix2 r t) k) r k rfl rfl, idx2_eq (ridx_main_v11 (ix2 r t) k) k t rfl rfl]
  · exact congrArg x5 (funext fun a => Fin.ext (by match a with | ⟨0, _⟩ => rfl))

/-- -∞ is below everything: a maximum with it changes nothing. -/
theorem max_negInf (y : EReal) : max (Ideal.ofBits .f32 0xFF800000#32) y = y := by
  simp [Ideal.ofBits, Ideal.ieee]

/-- A host reduction with a maximum body from -∞ along the rows, at row `r`: the fold of `max` over that row. -/
theorem hostRowMax (o : FVec Ideal S10000x64 .f32) (init : FVec Ideal S_ .f32)
    (hinit : ∀ i, init i = Ideal.ofBits .f32 0xFF800000#32) (h' : S10000x64.ReducesTo [1] S10000)
    (h : S10000x64.Reduces [1] S10000) (hu : 0 < S_.numel) (r : Fin 10000) :
    Host.reduce FloatOps.maximumf o init h' hu (ix1 r) = rowMax (fun t => o (ix2 r t)) := by
  rw [Host.reduce_eq_fold_single FloatOps.maximumf o init h' h hu, hinit]
  unfold rowMax
  have hf : (o ∘ h.lift (ix1 r)) = fun k : Fin 64 => o (ix2 r k) := funext fun k => congrArg o (lift_row h r k)
  exact congrArg (fun f => Finset.fold max (Ideal.ofBits .f32 0xFF800000#32) f (Finset.univ : Finset (Fin 64))) hf

/-- The row maximum the reference subtracts, at row `r`: the fold of `max` over the logits of that row. -/
theorem ref_rowMax (x0 : C S10000x128) (x1 : C S10000x10000) (x2 : C S128x128) (x3 : C S128) (x4 : C S128x64) (x5 : C S64)
    (r : Fin 10000) :
    val_main_call1_v2 (F := Ideal) x0 x1 x2 x3 x4 x5 (ix1 r) = rowMax (fun t => val_main_v14 (F := Ideal) x0 x1 x2 x3 x4 x5 (ix2 r t)) := by
  rw [val_main_call1_v2_apply, val_main_call1_v1_apply, val_main_call1_cst_0_apply]
  have h : S10000x64.Reduces [1] S10000 := by decide
  have e := hostRowMax (val_main_v14 (F := Ideal) x0 x1 x2 x3 x4 x5) (val_main_call1_cst (F := Ideal)) (fun _ => rfl)
    reducesTo_S10000x64_S10000_d1 h h_S_ r
  exact (congrArg (max (Ideal.ofBits .f32 0xFF800000#32)) e).trans (max_negInf _)

/-- The reference's result at an entry is log-softmax of the row of logits. -/
theorem ref_logSoftmax (x0 : C S10000x128) (x1 : C S10000x10000) (x2 : C S128x128) (x3 : C S128) (x4 : C S128x64) (x5 : C S64)
    (r : Fin 10000) (q : Fin 64) :
    val_main_v15 (F := Ideal) x0 x1 x2 x3 x4 x5 (ix2 r q)
      = logSoftmaxRow (fun t => val_main_v14 (F := Ideal) x0 x1 x2 x3 x4 x5 (ix2 r t)) q := by
  have he : ∀ t : Fin 64, val_main_call1_v5 (F := Ideal) x0 x1 x2 x3 x4 x5 (ix2 r t)
      = val_main_v14 (F := Ideal) x0 x1 x2 x3 x4 x5 (ix2 r t) - rowMax (fun t => val_main_v14 (F := Ideal) x0 x1 x2 x3 x4 x5 (ix2 r t)) := fun t => by
    have hi : idx_main_call1_v3 (idx_main_call1_v4 (ix2 r t)) = ix1 r :=
      funext fun a => Fin.ext (by match a with | ⟨0, _⟩ => rfl)
    rw [val_main_call1_v5_apply, val_main_call1_v4_apply, val_main_call1_v3_apply, hi, ref_rowMax, Ideal.subf_def]
  have hi : idx_main_call1_v8 (idx_main_call1_v10 (ix2 r q)) = ix1 r :=
    funext fun a => Fin.ext (by match a with | ⟨0, _⟩ => rfl)
  rw [val_main_v15_apply, he q, val_main_call1_v10_apply, val_main_call1_v9_apply, val_main_call1_v8_apply, hi,
    val_main_call1_v7_apply, val_main_call1_cst_1_apply, Ideal.subf_def, Ideal.hostUnary_log_def, Ideal.ofBits_def,
    Ideal.ofBits_zero_f32, zero_add]
  unfold logSoftmaxRow
  refine congrArg (fun s => _ - Ideal.log s) (Finset.sum_congr rfl fun k _ => ?_)
  rw [idx2_eq (idx_main_call1_v7 (ix1 r) k) r k rfl rfl, val_main_call1_v6_apply, he k, Ideal.hostUnary_exp_def]

/-- The reference's result is the specification's. -/
theorem ref_result (x0 : C S10000x128) (x1 : C S10000x10000) (x2 : C S128x128) (x3 : C S128) (x4 : C S128x64) (x5 : C S64) :
    val_main_v15 (F := Ideal) x0 x1 x2 x3 x4 x5 = result x0 x1 x2 (fun j => x3 (ix1 j)) x4 (fun j => x5 (ix1 j)) := by
  funext i
  obtain ⟨r, q, rfl⟩ : ∃ (r : Fin 10000) (q : Fin 64), i = ix2 r q := ⟨i 0, i 1, eq_ix2 i⟩
  rw [ref_logSoftmax]
  unfold result
  rw [normalized_apply]
  unfold outRow
  exact congrArg (fun f => logSoftmaxRow f q) (funext fun t => ref_aff2 x0 x1 x2 x3 x4 x5 r t)

/-- Every weakly fair execution of the reference terminates with its result buffer at the
    specification's `result` of the six arguments, the arguments unchanged. -/
theorem run_spec (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v15)
        = result (m ((c.tc : Thread nD τ).loc main_arg0)) (m ((c.tc : Thread nD τ).loc main_arg1))
            (m ((c.tc : Thread nD τ).loc main_arg2)) (fun j => m ((c.tc : Thread nD τ).loc main_arg3) (ix1 j))
            (m ((c.tc : Thread nD τ).loc main_arg4)) (fun j => m ((c.tc : Thread nD τ).loc main_arg5) (ix1 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run Cert.ReferenceIdeal.defs _ _).mono
    (fun _ h c => ⟨(h c).1.trans ((val_main_v15_eq m c).trans (ref_result _ _ _ _ _ _)), (h c).2⟩)
    (Cert.ReferenceIdeal.ValueP.run (F := Ideal) m ρ)

end Cert.ReferenceIdeal.RefValue

end
-- ==== Proof.lean ====
/-
  A two-layer graph convolution, kernel against reference, over the extended reals.

  With x : [10000,128], adj : [10000,10000], W1 : [128,128], b1 : [128], W2 : [128,64], b2 : [64], both programs compute
      support = x · W1,   hidden = leaky(adj · support + b1) · W2,   result = log_softmax(adj · hidden + b2) along each row.
  The reference does it with whole-array host operations. The kernel does it in two passes over 25 blocks of 400 rows of adj:
  the first pass stores the support once, at the first block, into a scratch array it keeps between blocks, and writes
  hidden block by block; the second pass reads hidden whole and writes the result block by block. Row r of hidden and of the
  result depends on adj only through row r of adj, so each written block is that block of ONE function of the arrays, the 25
  blocks tile the 10000 rows, and the kernel's result array is the same function of the arguments as the reference's: the same
  sums over the same index sets, the same leaky step with the same constant word, the same maximum, exponentials, sum and
  logarithm (the reference's extra maximum with a row of -∞ changes nothing). No step uses finiteness of the inputs.

  The three frames: each kernel program is three segments (the two reshapes of the bias vectors, then the two passes), each pass
  a pipeline whose body is run once per control case; no segment writes an argument array. The reference's frame is its run
  with the result dropped. The idealization rewrote no operation, so `preserves` asks nothing.
-/
import proofs.«125529_g13657996001618_cont_week2b_1100_3_alg».proof.Defs
import proofs.«125529_g13657996001618_cont_week2b_1100_3_alg».proof.Proof.Gen.Kernel
import proofs.«125529_g13657996001618_cont_week2b_1100_3_alg».proof.Proof.Gen.KernelIdeal
import proofs.«125529_g13657996001618_cont_week2b_1100_3_alg».proof.Proof.Gen.ReferenceIdeal
import proofs.«125529_g13657996001618_cont_week2b_1100_3_alg».proof.Proof.Gen.Pre_finite_inputs
import proofs.«125529_g13657996001618_cont_week2b_1100_3_alg».proof.Proof.FramesBits
import proofs.«125529_g13657996001618_cont_week2b_1100_3_alg».proof.Proof.KernelValueIdeal
import proofs.«125529_g13657996001618_cont_week2b_1100_3_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.TwoPasses.frame m ρ

/-- So does the idealized kernel. -/
theorem frame_kernel_ideal : Cert.frame_KernelIdeal := fun m ρ _ => Cert.KernelIdeal.TwoPasses.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run_spec m ρ)

/-- The idealization rewrote nothing. -/
theorem preserves : Cert.preserves_Kernel_KernelIdeal := trivial

/-- From memories agreeing on the six arguments both runs end with the result array at the graph convolution of the
    arguments: the kernel's by its two passes' write-backs, the reference's by its host operations read index by index. -/
theorem algebraic : Cert.algebraic_KernelIdeal_ReferenceIdeal := by
  intro m ρ m' ρ' _ hagree
  refine ⟨_, Cert.KernelIdeal.TwoPasses.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
